-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x128 .f32) (main_arg3 : FVec F S128x64 .f32) (main_arg4 : FVec F S128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S200x10000 : Shape := ⟨2, ![200, 10000]⟩
abbrev S400x10000 : Shape := ⟨2, ![400, 10000]⟩
abbrev S200x128 : Shape := ⟨2, ![200, 128]⟩
abbrev S200x64 : Shape := ⟨2, ![200, 64]⟩
abbrev S400x64 : Shape := ⟨2, ![400, 64]⟩
abbrev S10000x64 : Shape := ⟨2, ![10000, 64]⟩

abbrev nBuf : Space → Nat
  | .hbm => 7
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S128x128, .f32⟩
  | .hbm, ⟨6, _⟩ => ⟨S10000x10000, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S128x128, .f32⟩
  | .local _ .vmem, ⟨5, _⟩ => ⟨S400x10000, .f32⟩
  | .local _ .vmem, ⟨6, _⟩ => ⟨S400x10000, .f32⟩
  | .local _ .vmem, ⟨7, _⟩ => ⟨S10000x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![125], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v22 : BitVec 32 := Scalar.muli arg0 c200_i32
  let v23 : Index := Scalar.indexCast v22
  let c0_13 : Index := 0#32
  ![v23.toNat, 0]
def k0_cond3 (i : grid0.Coords) : BitVec 1 :=
  let arg0 : BitVec 32 := BitVec.ofNat 32 (i 0).val
  let c50_i32_2 : BitVec 32 := 50#32
  let v6 : BitVec 1 := Scalar.cmpi .sge arg0 c50_i32_2
  let c100_i32 : BitVec 32 := 100#32
  let v7 : BitVec 1 := Scalar.cmpi .slt arg0 c100_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off2 (i : grid0.Coords) : Fin 2 → Nat :=
  let arg0 : BitVec 32 := BitVec.ofNat 32 (i 0).val
  let c50_i32_9 : BitVec 32 := 50#32
  let v21 : BitVec 32 := Scalar.subi arg0 c50_i32_9
  let c200_i32 : BitVec 32 := 200#32
  let v22 : BitVec 32 := Scalar.muli v21 c200_i32
  let v23 : Index := Scalar.indexCast v22
  let c0_10 : Index := 0#32
  ![v23.toNat, 0]
def k0_cond4 (i : grid0.Coords) : BitVec 1 :=
  let arg0 : BitVec 32 := BitVec.ofNat 32 (i 0).val
  let c100_i32_4 : BitVec 32 := 100#32
  let v11 : BitVec 1 := Scalar.cmpi .sge arg0 c100_i32_4
  let v12 : BitVec 32 := Scalar.extui v11
  let c0_i32_5 : BitVec 32 := 0#32
  let v13 : BitVec 1 := Scalar.cmpi .ne v12 c0_i32_5
  v13

def k0_off3 (i : grid0.Coords) : Fin 2 → Nat :=
  let arg0 : BitVec 32 := BitVec.ofNat 32 (i 0).val
  let c100_i32_6 : BitVec 32 := 100#32
  let v14 : BitVec 32 := Scalar.subi arg0 c100_i32_6
  let c400_i32 : BitVec 32 := 400#32
  let v15 : BitVec 32 := Scalar.muli v14 c400_i32
  let v16 : Index := Scalar.indexCast v15
  let c0 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c50_i32 : BitVec 32 := 50#32
  let v0 : BitVec 1 := Scalar.cmpi .slt arg0 c50_i32
  let c100_i32 : BitVec 32 := 100#32
  let v1 : BitVec 1 := Scalar.cmpi .slt arg0 c100_i32
  let c50_i32_0 : BitVec 32 := 50#32
  let v2 : BitVec 32 := Scalar.subi arg0 c50_i32_0
  let c49_i32 : BitVec 32 := 49#32
  let v3 : BitVec 32 := Scalar.select v1 v2 c49_i32
  let v4 : BitVec 32 := Scalar.select v0 arg0 v3
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c100_i32 : BitVec 32 := 100#32
  let v0 : BitVec 32 := Scalar.subi arg0 c100_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S128x64_S128x64_S128x128_d1 : Shape.Concatenates [S128x64, S128x64] S128x128 1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  shapeCasts_S128x128_S128x128 : S128x128.ShapeCasts S128x128
  h_S200x128 : 0 < S200x128.numel
  shapeCasts_S200x128_S200x128 : S200x128.ShapeCasts S200x128
  slices_S200x128_o0_0_S200x64 : S200x128.Slices ![0, 0] S200x64
  slices_S200x128_o0_64_S200x64 : S200x128.Slices ![0, 64] S200x64
  h_S200x64 : 0 < S200x64.numel
  shapeCasts_S200x64_S200x64 : S200x64.ShapeCasts S200x64
  h_S400x64 : 0 < S400x64.numel
  inb_S10000x128_S10000x64_0_0 : ∀ a, (![0, 0] : Fin 2 → Nat) a + S10000x64.size a ≤ S10000x128.size a
  h_S10000x64 : 0 < S10000x64.numel
  inb_S400x10000_S400x10000_0_0 : ∀ a, (![0, 0] : Fin 2 → Nat) a + S400x10000.size a ≤ S400x10000.size a
  h_S400x10000 : 0 < S400x10000.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S400x64_S10000x64_S400x10000_1_1_0_0_n_n_wf : DotDims.WF S400x64 S10000x64 S400x10000 [1] [1] [0] [0] [] []
  hrank0 : 0 < grid0.rank
  k0_off1_inb : ∀ i : grid0.Coords, ∀ (k0_h2 : k0_cond2 i = 1#1), ∀ a, (k0_off1 i) a + S200x128.size a ≤ S10000x128.size a
  k0_off2_inb : ∀ i : grid0.Coords, ∀ (k0_h3 : k0_cond3 i = 1#1), ∀ a, (k0_off2 i) a + S200x64.size a ≤ S10000x128.size a
  k0_off3_inb : ∀ i : grid0.Coords, ∀ (k0_h4 : k0_cond4 i = 1#1), ∀ a, (k0_off3 i) a + S400x64.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x10000.size a ≤ S10000x10000.size a
  hwx0_4 : ∀ i : grid0.Coords, EltTy.bits .f32 = 32 ∨ (Rect.block (s := S10000x10000) S400x10000.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S400x64_S10000x64_S400x10000_1_1_0_0_n_n : DotDims S400x64 S10000x64 S400x10000 where
  lhsContracting := [1]
  rhsContracting := [1]
  lhsNonContracting := [0]
  rhsNonContracting := [0]
  lhsBatch := []
  rhsBatch := []
  wf := dot_S400x64_S10000x64_S400x10000_1_1_0_0_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x64 : Shape := ⟨2, ![128, 64]⟩
abbrev S_ : Shape := ⟨0, ![]⟩
abbrev S10000x64 : Shape := ⟨2, ![10000, 64]⟩
abbrev S64x10000 : Shape := ⟨2, ![64, 10000]⟩

abbrev nBuf : Space → Nat
  | .hbm => 32
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x64, .f32⟩
  | .hbm, ⟨4, _⟩ => ⟨S128x64, .f32⟩
  | .hbm, ⟨5, _⟩ => ⟨S10000x128, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x64, .f32⟩
  | .hbm, ⟨15, _⟩ => ⟨S10000x64, .f32⟩
  | .hbm, ⟨16, _⟩ => ⟨S64x10000, .f32⟩
  | .hbm, ⟨17, _⟩ => ⟨S10000x10000, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S_, .f32⟩
  | .hbm, ⟨24, _⟩ => ⟨S10000x10000, .f32⟩
  | .hbm, ⟨25, _⟩ => ⟨S10000x10000, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S10000x64_S64x10000_1_0 : S10000x64.Transposes [1, 0] S64x10000
  bcast_S_S10000x10000 : S_.BroadcastsInDim S10000x10000 (![] : Fin 0 → Fin S10000x10000.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x10000_S10000x10000_1_0_0_1_n_n_wf : DotDims.WF S10000x64 S64x10000 S10000x10000 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.Bits.Conds.lean ====
import proofs.«100160_g20486994002746_cont_sun_c4_266_22_alg».proof.Proof.Gen.Kernel.Frame
import proofs.«100160_g20486994002746_cont_sun_c4_266_22_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Facts₀

variable {F : FTy → Type} [FloatOps F]

local notation "𝕄" => MT nD τ sig Unit (Elt F) ℕ (UR sig nD τ) ℕ

/-- The first branch's condition (the grid coordinate is zero), as the kernel computes it. -/
abbrev cond1 (i : grid0.Coords) : Prop :=
  Scalar.cmpi .ne (Scalar.extui (Scalar.cmpi .eq (BitVec.ofNat 32 (i 0).val) 0#32)) 0#32 = 1#1

end Cert.Kernel.Hand

end
-- ==== Proof.Bits.RunA.lean ====
import proofs.«100160_g20486994002746_cont_sun_c4_266_22_alg».proof.Proof.Bits.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Facts₀

variable {F : FTy → Type} [FloatOps F]

local notation "𝕄" => MT nD τ sig Unit (Elt F) ℕ (UR sig nD τ) ℕ

variable (c : Dev nD)

set_option maxHeartbeats 4000000 in
/-- The body at the first grid point: the product x·W1 is stored over the whole first scratch, then rows 0..199 of the
    second scratch are stored from the adjacency slab and the first scratch just written. The pieces each scratch ends
    with are found by the run. -/
noncomputable def runA (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : cond1 i) (hc2 : k0_cond2 i = 1#1) (hc3 : ¬ k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    Σ' (LS0 : List (View.Piece (Elt F) S10000x128 .f32)), { LS1 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    iexact H7

end Cert.Kernel.Hand

end
-- ==== Proof.Bits.RunB.lean ====
import proofs.«100160_g20486994002746_cont_sun_c4_266_22_alg».proof.Proof.Bits.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Facts₀

variable {F : FTy → Type} [FloatOps F]

local notation "𝕄" => MT nD τ sig Unit (Elt F) ℕ (UR sig nD τ) ℕ

variable (c : Dev nD)

set_option maxHeartbeats 4000000 in
/-- The body at a later point of the first phase: one slab of 200 rows of the second scratch is stored, computed from
    the adjacency slab, the first scratch (read whole) and the fused head weights. -/
noncomputable def runB (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : k0_cond2 i = 1#1) (hc3 : ¬ k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    { LS1 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexact H7

end Cert.Kernel.Hand

end
-- ==== Proof.Bits.RunC.lean ====
import proofs.«100160_g20486994002746_cont_sun_c4_266_22_alg».proof.Proof.Bits.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Facts₀

variable {F : FTy → Type} [FloatOps F]

local notation "𝕄" => MT nD τ sig Unit (Elt F) ℕ (UR sig nD τ) ℕ

variable (c : Dev nD)

set_option maxHeartbeats 4000000 in
/-- The body at a point of the second phase: one slab of 200 rows of the first 64 lanes of the first scratch is
    stored, computed from the adjacency slab and the second scratch (read whole). -/
noncomputable def runC (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : ¬ k0_cond2 i = 1#1) (hc3 : k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    { LS0 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread xs0) LS0) ∗ owns (c : Thread nD τ) arg7 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    iexists _; isplitr; · ipureintro; exact harg7.read_unread _
    iexact H7

end Cert.Kernel.Hand

end
-- ==== Proof.Bits.RunD.lean ====
import proofs.«100160_g20486994002746_cont_sun_c4_266_22_alg».proof.Proof.Bits.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Kernel.Facts₀

variable {F : FTy → Type} [FloatOps F]

local notation "𝕄" => MT nD τ sig Unit (Elt F) ℕ (UR sig nD τ) ℕ

variable (c : Dev nD)

set_option maxHeartbeats 4000000 in
/-- The body at a point of the last phase: the output block is stored whole, computed from 400 rows and from all
    rows of the first 64 lanes of the first scratch. -/
noncomputable def runD (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : ¬ k0_cond2 i = 1#1) (hc3 : ¬ k0_cond3 i = 1#1) (hc4 : k0_cond4 i = 1#1)
    (x1 : Vec F S10000x128 .f32) (x2 : Vec F S128x128 .f32) (x3 : Vec F S200x10000 .f32) (x4 : Vec F S128x128 .f32)
    (xs0 xs1 : Vec F S10000x128 .f32) :
    { L5 : List (View.Piece (Elt F) S400x10000 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ (arg5.view.loc (c : Thread nD τ) ↦[arg5.view.set]{fullShare} arg5.view.writes (Elt F) (harg5.unread x5) L5) ∗ owns (c : Thread nD τ) arg6 fullShare xs0 ∗ owns (c : Thread nD τ) arg7 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    isplitl [H6]
    · iexists _; isplitr; · ipureintro; exact harg6.read_unread _
      iexact H6
    iexists _; isplitr; · ipureintro; exact harg7.read_unread _
    iexact H7

end Cert.Kernel.Hand

end
-- ==== Proof.Bits.Pieces.lean ====
import proofs.«100160_g20486994002746_cont_sun_c4_266_22_alg».proof.Proof.Bits.RunD
import Idealize.ShloMosaic.Lib.WholeRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD)

/-- The zero offsets of a rank-two rectangle, as the constant function. -/
theorem zero2 : (![0, 0] : Fin 2 → ℕ) = fun _ => 0 := by
  funext a; match a with | ⟨0, _⟩ => rfl | ⟨1, _⟩ => rfl

/-- At the first point the first scratch ends with ONE piece: the product of the two loaded blocks, over the whole buffer. -/
theorem piecesA0 (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runA c i arg1 harg1 arg2 harg2 arg3 harg3 arg4 harg4 arg5 harg5 arg6 harg6 arg7 harg7 hc1 hc2 hc3 hc4 x1 x2 x3 x4 xs0 xs1).1 = [⟨Rect.unit (s := S10000x128) ![0, 0] S10000x128.size inb_S10000x128_S10000x128_0_0, k0_pay1 x1 x2⟩] := by
  unfold runA; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At the first point the second scratch ends with ONE piece, rows 0..199: the slab computed from the product just stored. -/
theorem piecesA1 (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runA c i arg1 harg1 arg2 harg2 arg3 harg3 arg4 harg4 arg5 harg5 arg6 harg6 arg7 harg7 hc1 hc2 hc3 hc4 x1 x2 x3 x4 xs0 xs1).2.1 = [⟨Rect.unit (s := S10000x128) (k0_off1 i) S200x128.size (k0_off1_inb i hc2), k0_pay2 x3 (k0_pay1 x1 x2) x4⟩] := by
  unfold runA; dsimp only; sl_unfold_words
  simp only [View.readAt_eq_ld, Memref.IsWhole.read_unread, View.ld_unit_zero (S := S10000x128) zero2, View.ld_unit_zero (S := S128x128) zero2, View.ld_unit_zero (S := S200x10000) zero2, View.readCov_unit_zero (S := S10000x128) _ zero2]
  try rfl

/-- At a later point of the first phase the second scratch ends with ONE piece: the slab computed from the first scratch as found. -/
theorem piecesB (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runB c i arg1 harg1 arg2 harg2 arg3 harg3 arg4 harg4 arg5 harg5 arg6 harg6 arg7 harg7 hc1 hc2 hc3 hc4 x1 x2 x3 x4 xs0 xs1).1 = [⟨Rect.unit (s := S10000x128) (k0_off1 i) S200x128.size (k0_off1_inb i hc2), k0_pay2 x3 xs0 x4⟩] := by
  unfold runB; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At a point of the second phase the first scratch ends with ONE piece, 200 rows of its first 64 lanes. -/
theorem piecesC (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : ¬ k0_cond2 i = 1#1) (hc3 : k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runC c i arg1 harg1 arg2 harg2 arg3 harg3 arg4 harg4 arg5 harg5 arg6 harg6 arg7 harg7 hc1 hc2 hc3 hc4 x1 x2 x3 x4 xs0 xs1).1 = [⟨Rect.unit (s := S10000x128) (k0_off2 i) S200x64.size (k0_off2_inb i hc3), k0_pay3 x3 xs1⟩] := by
  unfold runC; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At a point of the last phase the output block is ONE whole piece, computed from two loads of the first scratch. -/
theorem piecesD (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : ¬ k0_cond2 i = 1#1) (hc3 : ¬ k0_cond3 i = 1#1) (hc4 : k0_cond4 i = 1#1) (x1 : Vec F S10000x128 .f32) (x2 : Vec F S128x128 .f32) (x3 : Vec F S200x10000 .f32) (x4 : Vec F S128x128 .f32) (xs0 xs1 : Vec F S10000x128 .f32) :
    (runD c i arg1 harg1 arg2 harg2 arg3 harg3 arg4 harg4 arg5 harg5 arg6 harg6 arg7 harg7 hc1 hc2 hc3 hc4 x1 x2 x3 x4 xs0 xs1).1 = [⟨Rect.unit (s := S400x10000) ![0, 0] S400x10000.size inb_S400x10000_S400x10000_0_0,
      k0_pay4 (View.ld xs0 (Rect.unit (s := S10000x128) (k0_off3 i) S400x64.size (k0_off3_inb i hc4)))
        (View.ld xs0 (Rect.unit (s := S10000x128) ![0, 0] S10000x64.size inb_S10000x128_S10000x64_0_0))⟩] := by
  unfold runD; dsimp only; sl_unfold_words
  simp only [View.readAt_eq_ld, Memref.IsWhole.read_unread]
  try rfl

end Cert.Kernel.Hand

end
-- ==== Proof.Bits.State.lean ====
import proofs.«100160_g20486994002746_cont_sun_c4_266_22_alg».proof.Proof.Gen.Kernel.Skeleton
import Idealize.ShloMosaic.Lib.ValueIdx
import Idealize.ShloMosaic.Lib.WritesUnit
import Idealize.ShloMosaic.Lib.WholeRead

set_option maxRecDepth 16384

noncomputable section

namespace Cert.Kernel.Hand

open Idealize.ShloMosaic Idealize.ShloMosaic.ValueIdx Cert.Kernel.Gen

variable {F : FTy → Type} [FloatOps F]

/-! ## What the two scratch buffers hold, in closed form

The kernel keeps three intermediate arrays in two scratch buffers. With `X`, `W1`, `W2` the staged operands and
`A n` the adjacency slab staged at grid point `n`:
the product X·W1 (all of the first scratch after point 0); the hidden layer's projection, slab `j` of 200 rows
computed at point `j` from slab `A j` (the second scratch, complete after point 49); and the latent array, slab `j`
computed at point `50 + j` from `A (50 + j)` into the first 64 lanes of the first scratch (complete after point 99). -/

section Spec

variable (X : ℕ → Vec F S10000x128 .f32) (W1 W2 : ℕ → Vec F S128x128 .f32) (A : ℕ → Vec F S200x10000 .f32)

/-- The first scratch after the first point: the product of the feature block with the first weights. -/
def specXW : Vec F S10000x128 .f32 := k0_pay1 (X 0) (W1 0)

/-- The second scratch once complete: row `r` is row `r % 200` of the slab computed from adjacency slab `r / 200`. -/
def specHW : Vec F S10000x128 .f32 := fun y =>
  k0_pay2 (A ((y 0).val / 200)) (specXW X W1) (W2 ((y 0).val / 200))
    (ix2 (n0 := 200) (n1 := 128) ⟨(y 0).val % 200, Nat.mod_lt _ (by decide)⟩ ⟨(y 1).val, idx2_lt1 y⟩)

/-- The first scratch once the second phase is over: in the first 64 lanes, row `r` is row `r % 200` of the slab
    computed at point `50 + r / 200`; the other lanes still hold the product. -/
def specZ : Vec F S10000x128 .f32 := fun y =>
  if h : (y 1).val < 64 then
    k0_pay3 (A (50 + (y 0).val / 200)) (specHW X W1 W2 A)
      (ix2 (n0 := 200) (n1 := 64) ⟨(y 0).val % 200, Nat.mod_lt _ (by decide)⟩ ⟨(y 1).val, h⟩)
  else specXW X W1 y

/-- What is known of the two scratch buffers' contents `S0`, `S1` before grid point `n`: during the first phase the
    first scratch is the product; the rows of the second scratch stored so far (all of them from point 50 on) are the
    projection's; the rows of the first 64 lanes of the first scratch stored so far in the second phase (all of them
    from point 100 on) are the latent array's. -/
structure Inv (n : ℕ) (S0 S1 : Vec F S10000x128 .f32) : Prop where
  first : 1 ≤ n → n ≤ 50 → S0 = specXW X W1
  rows1 : ∀ y : S10000x128.Idx, (y 0).val < 200 * n → S1 y = specHW X W1 W2 A y
  rows0 : ∀ y : S10000x128.Idx, (y 0).val + 10000 < 200 * n → (y 1).val < 64 → S0 y = specZ X W1 W2 A y

/-- Before the first point nothing is known, and nothing is claimed. -/
theorem inv_zero (S0 S1 : Vec F S10000x128 .f32) : Inv X W1 W2 A 0 S0 S1 :=
  ⟨fun h _ => absurd h (by decide), fun y h => absurd h (by omega), fun y h _ => absurd h (by omega)⟩

variable (a6 a7 : Memref sig .tc .vmem S10000x128 .f32) (h6 : a6.IsWhole) (h7 : a7.IsWhole)

/-- The first point: the whole first scratch is overwritten by the product, and rows 0..199 of the second by the first slab. -/
theorem inv_stepA (n : ℕ) (hn : n = 0) (S0 S1 : Vec F S10000x128 .f32) (off : Fin 2 → ℕ) (hoff : off = ![200 * n, 0])
    (inb0 : ∀ a, (![0, 0] : Fin 2 → ℕ) a + S10000x128.size a ≤ S10000x128.size a)
    (inb1 : ∀ a, off a + S200x128.size a ≤ S10000x128.size a) :
    Inv X W1 W2 A (n + 1)
      (a6.view.read (Elt F) (a6.view.writes (Elt F) (h6.unread S0)
        [⟨Rect.unit (s := S10000x128) ![0, 0] S10000x128.size inb0, k0_pay1 (X n) (W1 n)⟩]))
      (a7.view.read (Elt F) (a7.view.writes (Elt F) (h7.unread S1)
        [⟨Rect.unit (s := S10000x128) off S200x128.size inb1, k0_pay2 (A n) (k0_pay1 (X n) (W1 n)) (W2 n)⟩])) := by
  subst hn
  refine ⟨fun _ _ => ?_, fun y hy => ?_, fun y hy _ => absurd hy (by omega)⟩
  · funext y
    exact View.read_writes_cons_rows_of_mem a6.view (h6.unread S0) inb0 (k0_pay1 (X 0) (W1 0)) [] y y rfl (Nat.zero_add _).symm rfl
  · have h := View.read_writes_cons_rows_of_mem a7.view (h7.unread S1) inb1 (k0_pay2 (A 0) (k0_pay1 (X 0) (W1 0)) (W2 0)) [] y
      (ix2 (n0 := 200) (n1 := 128) ⟨(y 0).val % 200, Nat.mod_lt _ (by decide)⟩ ⟨(y 1).val, idx2_lt1 y⟩) hoff
      (by show (y 0).val = 200 * 0 + (y 0).val % 200; omega) rfl
    rw [h]; unfold specHW specXW
    have e : (y 0).val / 200 = 0 := by omega
    rw [e]

/-- A later point `n` of the first phase: rows 200n..200n+199 of the second scratch are overwritten by slab `n`. -/
theorem inv_stepB (n : ℕ) (hn1 : 1 ≤ n) (hn : n < 50) (S0 S1 : Vec F S10000x128 .f32) (hinv : Inv X W1 W2 A n S0 S1)
    (off : Fin 2 → ℕ) (hoff : off = ![200 * n, 0]) (inb1 : ∀ a, off a + S200x128.size a ≤ S10000x128.size a) :
    Inv X W1 W2 A (n + 1) S0
      (a7.view.read (Elt F) (a7.view.writes (Elt F) (h7.unread S1)
        [⟨Rect.unit (s := S10000x128) off S200x128.size inb1, k0_pay2 (A n) S0 (W2 n)⟩])) := by
  refine ⟨fun _ _ => hinv.first hn1 (by omega), fun y hy => ?_, fun y hy _ => absurd hy (by omega)⟩
  by_cases hlt : (y 0).val < 200 * n
  · rw [View.read_writes_cons_rows_of_not_mem a7.view (h7.unread S1) inb1 _ [] y hoff rfl (Or.inl hlt)]
    rw [View.writes_nil, h7.read_unread]
    exact hinv.rows1 y hlt
  · have h := View.read_writes_cons_rows_of_mem a7.view (h7.unread S1) inb1 (k0_pay2 (A n) S0 (W2 n)) [] y
      (ix2 (n0 := 200) (n1 := 128) ⟨(y 0).val % 200, Nat.mod_lt _ (by decide)⟩ ⟨(y 1).val, idx2_lt1 y⟩) hoff
      (by show (y 0).val = 200 * n + (y 0).val % 200; omega) rfl
    rw [h, hinv.first hn1 (by omega)]; unfold specHW
    have e : (y 0).val / 200 = n := by omega
    rw [e]

/-- A point `n` of the second phase: rows 200(n-50).. of the first 64 lanes of the first scratch are overwritten by
    the latent slab computed from the complete second scratch. -/
theorem inv_stepC (n : ℕ) (hn0 : 50 ≤ n) (hn : n < 100) (S0 S1 : Vec F S10000x128 .f32) (hinv : Inv X W1 W2 A n S0 S1)
    (off : Fin 2 → ℕ) (hoff : off = ![200 * (n - 50), 0]) (inb : ∀ a, off a + S200x64.size a ≤ S10000x128.size a) :
    Inv X W1 W2 A (n + 1)
      (a6.view.read (Elt F) (a6.view.writes (Elt F) (h6.unread S0)
        [⟨Rect.unit (s := S10000x128) off S200x64.size inb, k0_pay3 (A n) S1⟩])) S1 := by
  have hS1 : S1 = specHW X W1 W2 A := funext fun y => hinv.rows1 y (by have := idx2_lt0 y; omega)
  refine ⟨fun _ h => absurd h (by omega), fun y hy => hinv.rows1 y (by have := idx2_lt0 y; omega), fun y hy hq => ?_⟩
  by_cases hlt : (y 0).val + 10000 < 200 * n
  · rw [View.read_writes_cons_unit_of_not_mem a6.view (h6.unread S0) inb _ [] y hoff (0 : Fin 2)
      (Or.inl (by show (y 0).val < 200 * (n - 50); omega))]
    rw [View.writes_nil, h6.read_unread]
    exact hinv.rows0 y hlt hq
  · have h := View.read_writes_cons_unit_of_mem a6.view (h6.unread S0) inb (k0_pay3 (A n) S1) [] y
      (ix2 (n0 := 200) (n1 := 64) ⟨(y 0).val % 200, Nat.mod_lt _ (by decide)⟩ ⟨(y 1).val, hq⟩) hoff
      (Fin.forall_fin_two.mpr ⟨by show (y 0).val = 200 * (n - 50) + (y 0).val % 200; omega,
        by show (y 1).val = 0 + (y 1).val; omega⟩)
    rw [h, hS1]; unfold specZ; rw [dif_pos hq]
    have e : 50 + (y 0).val / 200 = n := by omega
    rw [e]

/-- A point of the last phase stores into neither scratch. -/
theorem inv_stepD (n : ℕ) (hn : 100 ≤ n) (S0 S1 : Vec F S10000x128 .f32) (hinv : Inv X W1 W2 A n S0 S1) :
    Inv X W1 W2 A (n + 1) S0 S1 :=
  ⟨fun _ h => absurd h (by omega), fun y _ => hinv.rows1 y (by have := idx2_lt0 y; omega),
    fun y _ hq => hinv.rows0 y (by have := idx2_lt0 y; omega) hq⟩

/-- In the last phase a load of the first scratch that stays within the first 64 lanes reads the latent array. -/
theorem ld_eq_of_inv (n : ℕ) (hn : 100 ≤ n) (S0 S1 : Vec F S10000x128 .f32) (hinv : Inv X W1 W2 A n S0 S1)
    (r : Rect S10000x128) (hr : ∀ p, ((r.idx p) 1).val < 64) :
    View.ld (Val := Elt F) S0 r = View.ld (Val := Elt F) (specZ X W1 W2 A) r :=
  funext fun p => hinv.rows0 _ (by have := idx2_lt0 (r.idx p); omega) (hr p)

end Spec

/-- One store through the whole of a rank-two buffer leaves its payload. -/
theorem read_writes_whole2 {sg : RefSig} {κ : Kind} {sp : Space} {e : EltTy} {Val : EltTy → Type} {d : Fin 2 → ℕ}
    (v : View sg κ sp (⟨2, d⟩ : Shape) e) (f : v.ty.Contents Val)
    (inb : ∀ a : Fin 2, (![0, 0] : Fin 2 → ℕ) a + d a ≤ d a)
    (w : (Rect.unit (s := ⟨2, d⟩) ![0, 0] d inb).shape.Idx → Val e) :
    v.read Val (v.writes Val f [⟨Rect.unit (s := ⟨2, d⟩) ![0, 0] d inb, w⟩]) = w :=
  funext fun y => View.read_writes_cons_rows_of_mem v f inb w [] y y rfl (Nat.zero_add _).symm rfl

end Cert.Kernel.Hand

end
-- ==== Proof.Bits.GridFacts.lean ====
import proofs.«100160_g20486994002746_cont_sun_c4_266_22_alg».proof.Proof.Bits.Pieces
import proofs.«100160_g20486994002746_cont_sun_c4_266_22_alg».proof.Proof.Bits.State

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The branch conditions, the store offsets and the idle table, decided over the 125 grid points -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
theorem hcond4 : ∀ t : Fin cfg0.N, k0_cond4 (grid0.coords t) = 1#1 ↔ 100 ≤ t.val :=
  (by decide +kernel : ∀ t : Fin grid0.N, k0_cond4 (grid0.coords t) = 1#1 ↔ 100 ≤ t.val)

/-- In the first phase the slab stored into the second scratch starts at row 200·t. -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
/-- In the second phase the slab stored into the first scratch starts at row 200·(t − 50). -/
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])
/-- In the last phase the rows loaded for the output block start at row 400·(t − 100). -/
theorem hoff3 : ∀ t : Fin cfg0.N, 100 ≤ t.val → k0_off3 (grid0.coords t) = ![400 * (t.val - 100), 0] :=
  (by decide +kernel : ∀ t : Fin grid0.N, 100 ≤ t.val → k0_off3 (grid0.coords t) = ![400 * (t.val - 100), 0])

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Before the last phase the output window is idle and is not written back. -/
theorem idleAt4 : ∀ t : Fin cfg0.N, t.val < 100 → cfg0.idle 4 (grid0.coords t) = true := by decide +kernel
theorem noFlush4 : ∀ t : Fin cfg0.N, t.val < 100 → (cfg0.win 4).flush t = false := by decide +kernel
/-- In the last phase it is live, and every point writes its block back. -/
theorem liveAt4 : ∀ t : Fin cfg0.N, 100 ≤ t.val → cfg0.idle 4 (grid0.coords t) = false := by decide +kernel
theorem flush4 : ∀ t : Fin cfg0.N, 100 ≤ t.val → (cfg0.win 4).flush t = true := by decide +kernel

end Cert.Kernel.Hand

end
-- ==== Proof.Bits.DataDefs.lean ====
import proofs.«100160_g20486994002746_cont_sun_c4_266_22_alg».proof.Proof.Bits.GridFacts

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks and the scratch memrefs -/

/-- Grid point `n` (taken modulo the 125 points, so that a natural number names a point). -/
def pt (n : ℕ) : Fin cfg0.N := ⟨n % 125, Nat.mod_lt _ (by decide)⟩

theorem pt_val (t : Fin cfg0.N) : pt t.val = t :=
  Fin.ext (Nat.mod_eq_of_lt (lt_of_lt_of_eq t.isLt N_0))

/-- The feature block, the first weights, the fused head weights and the adjacency slab as staged at point `n`. -/
def aX (c : Dev nD) (n : ℕ) : Vec F S10000x128 .f32 := iblk m c 0 (pt n)
def aW1 (c : Dev nD) (n : ℕ) : Vec F S128x128 .f32 := iblk m c 1 (pt n)
def aW2 (c : Dev nD) (n : ℕ) : Vec F S128x128 .f32 := iblk m c 3 (pt n)
def aA (c : Dev nD) (n : ℕ) : Vec F S200x10000 .f32 := iblk m c 2 (pt n)

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x10000 .f32 := win0_4.stage (cfg0.slots t 4)
abbrev hs4 (t : Fin cfg0.N) : (ms4 t).IsWhole := hstage0_4 ((cfg0.slots t 4).cast nbuf0_4)
/-- The two scratch operands: whole scoped buffers of the kernel's own. -/
abbrev scM0 : Memref sig .tc .vmem S10000x128 .f32 := Memref.whole cc0_scratch0
abbrev scM1 : Memref sig .tc .vmem S10000x128 .f32 := Memref.whole cc0_scratch1

/-- The class invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The output block and the invariant -/

/-- The latent array as the first scratch holds it once the second phase is over (State.lean's closed form at the staged blocks). -/
def zArr (c : Dev nD) : Vec F S10000x128 .f32 := specZ (aX m c) (aW1 m c) (aW2 m c) (aA m c)

/-- What the body leaves in the output window's staging buffer at a point of the last phase: the decoder's block computed
    from 400 rows and from all rows of the latent array. (Elsewhere a placeholder nothing consults: the window is idle.) -/
def outAt (c : Dev nD) (t : Fin cfg0.N) : Vec F S400x10000 .f32 :=
  if h : k0_cond4 (grid0.coords t) = 1#1 then
    k0_pay4 (View.ld (Val := Elt F) (zArr m c) (Rect.unit (s := S10000x128) (k0_off3 (grid0.coords t)) S400x64.size (k0_off3_inb (grid0.coords t) h)))
      (View.ld (Val := Elt F) (zArr m c) (Rect.unit (s := S10000x128) ![0, 0] S10000x64.size inb_S10000x128_S10000x64_0_0))
  else fun _ => aW1 m c 0 (ValueIdx.ix2 (n0 := 128) (n1 := 128) ⟨0, by decide⟩ ⟨0, by decide⟩)

/-- The region invariant before position `n`: the two scratch buffers at SOME contents of which State.lean's `Inv` holds
    at `n`, and the generator register at some state. -/
def PhiS (c : Dev nD) (n : ℕ) : sProp 𝕄 :=
  iprop(∃ S0 S1, ⌜Inv (aX m c) (aW1 m c) (aW2 m c) (aA m c) n S0 S1⌝
    ∗ owns (c : Thread nD τ) scM0 fullShare S0 ∗ owns (c : Thread nD τ) scM1 fullShare S1 ∗ (∃ r, prngReg c r))

/-! ## The pipeline's proof data -/

/-- The proof data of the one pipeline on core `c`: the arrays as the region finds them; after the body each input's
    buffer at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4_live (c : Dev nD) (t : Fin cfg0.N) (h : 100 ≤ t.val) :
    (dats m 0 c).leavesExact 4 t = owns (c : Thread nD τ) (ms4 t) fullShare (outAt m c t) := by
  unfold Dat.leavesExact; rw [liveAt4 t h, after4]

theorem aX_at (c : Dev nD) (t : Fin cfg0.N) : iblk m c 0 t = aX m c t.val := by
  unfold aX; rw [pt_val t]
theorem aW1_at (c : Dev nD) (t : Fin cfg0.N) : iblk m c 1 t = aW1 m c t.val := by
  unfold aW1; rw [pt_val t]
theorem aW2_at (c : Dev nD) (t : Fin cfg0.N) : iblk m c 3 t = aW2 m c t.val := by
  unfold aW2; rw [pt_val t]
theorem aA_at (c : Dev nD) (t : Fin cfg0.N) : iblk m c 2 t = aA m c t.val := by
  unfold aA; rw [pt_val t]

/-! ## What each case leaves, read back: the invariant at the next point, and the output block -/

/-- The first point establishes the invariant at position 1. -/
theorem pureA (c : Dev nD) (t : Fin cfg0.N) (h0 : t.val = 0) (hc1 : cond1 (grid0.coords t)) (hc2 : k0_cond2 (grid0.coords t) = 1#1) (hc3 : ¬ k0_cond3 (grid0.coords t) = 1#1) (hc4 : ¬ k0_cond4 (grid0.coords t) = 1#1) (S0 S1 : Vec F S10000x128 .f32) :
    Inv (aX m c) (aW1 m c) (aW2 m c) (aA m c) (t.val + 1)
      (scM0.view.read (Elt F) (scM0.view.writes (Elt F) ((Memref.isWhole_whole cc0_scratch0).unread S0) (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1))
      (scM1.view.read (Elt F) (scM1.view.writes (Elt F) ((Memref.isWhole_whole cc0_scratch1).unread S1) (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2.1)) := by
  rw [piecesA1, piecesA0, aX_at, aW1_at, aA_at, aW2_at]
  exact inv_stepA _ _ _ _ scM0 scM1 (Memref.isWhole_whole _) (Memref.isWhole_whole _) t.val h0 S0 S1 _
    (hoff1 t (by omega)) _ _

/-- A later point of the first phase carries the invariant one position on. -/
theorem pureB (c : Dev nD) (t : Fin cfg0.N) (h1 : 1 ≤ t.val) (h50 : t.val < 50) (hc1 : ¬ cond1 (grid0.coords t)) (hc2 : k0_cond2 (grid0.coords t) = 1#1) (hc3 : ¬ k0_cond3 (grid0.coords t) = 1#1) (hc4 : ¬ k0_cond4 (grid0.coords t) = 1#1) (S0 S1 : Vec F S10000x128 .f32)
    (hinv : Inv (aX m c) (aW1 m c) (aW2 m c) (aA m c) t.val S0 S1) :
    Inv (aX m c) (aW1 m c) (aW2 m c) (aA m c) (t.val + 1) S0
      (scM1.view.read (Elt F) (scM1.view.writes (Elt F) ((Memref.isWhole_whole cc0_scratch1).unread S1) (runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1)) := by
  rw [piecesB, aA_at, aW2_at]
  exact inv_stepB _ _ _ _ scM1 (Memref.isWhole_whole _) t.val h1 h50 S0 S1 hinv _ (hoff1 t h50) _

/-- A point of the second phase carries the invariant one position on. -/
theorem pureC (c : Dev nD) (t : Fin cfg0.N) (h50 : 50 ≤ t.val) (h100 : t.val < 100) (hc1 : ¬ cond1 (grid0.coords t)) (hc2 : ¬ k0_cond2 (grid0.coords t) = 1#1) (hc3 : k0_cond3 (grid0.coords t) = 1#1) (hc4 : ¬ k0_cond4 (grid0.coords t) = 1#1) (S0 S1 : Vec F S10000x128 .f32)
    (hinv : Inv (aX m c) (aW1 m c) (aW2 m c) (aA m c) t.val S0 S1) :
    Inv (aX m c) (aW1 m c) (aW2 m c) (aA m c) (t.val + 1)
      (scM0.view.read (Elt F) (scM0.view.writes (Elt F) ((Memref.isWhole_whole cc0_scratch0).unread S0) (runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1)) S1 := by
  rw [piecesC, aA_at]
  exact inv_stepC _ _ _ _ scM0 (Memref.isWhole_whole _) t.val h50 h100 S0 S1 hinv _ (hoff2 t h50 h100) _

/-- At a point of the last phase the stored block is the proof data's closed term: both loads stay within the lanes the invariant describes. -/
theorem pureD (c : Dev nD) (t : Fin cfg0.N) (h100 : 100 ≤ t.val) (hc1 : ¬ cond1 (grid0.coords t)) (hc2 : ¬ k0_cond2 (grid0.coords t) = 1#1) (hc3 : ¬ k0_cond3 (grid0.coords t) = 1#1) (hc4 : k0_cond4 (grid0.coords t) = 1#1) (S0 S1 : Vec F S10000x128 .f32)
    (hinv : Inv (aX m c) (aW1 m c) (aW2 m c) (aA m c) t.val S0 S1) (x5 : Vec F S400x10000 .f32) :
    (ms4 t).view.read (Elt F) ((ms4 t).view.writes (Elt F) ((hs4 t).unread x5) (runD c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1) = outAt m c t := by
  rw [piecesD, read_writes_whole2]
  unfold outAt; rw [dif_pos hc4]
  rw [ld_eq_of_inv _ _ _ _ t.val h100 S0 S1 hinv _ (fun p => by
      have e : k0_off3 (grid0.coords t) 1 = 0 := rfl
      have hp : (p 1).val < 64 := (p 1).isLt
      show k0_off3 (grid0.coords t) 1 + 1 * (p 1).val < 64
      omega),
    ld_eq_of_inv _ _ _ _ t.val h100 S0 S1 hinv _ (fun p => by
      have hp : (p 1).val < 64 := (p 1).isLt
      show 0 + 1 * (p 1).val < 64
      omega)]
  rfl

end Cert.Kernel.Hand

end
-- ==== Proof.Bits.SoundA.lean ====
import proofs.«100160_g20486994002746_cont_sun_c4_266_22_alg».proof.Proof.Bits.DataDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at the first point: the first scratch is stored whole, then the first slab of the second; the output window is idle. -/
theorem soundA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : cond1 (grid0.coords t) := (hcond1 t).mpr h0
  have hc2 : k0_cond2 (grid0.coords t) = 1#1 := (hcond2 t).mpr (by omega)
  have hc3 : ¬ k0_cond3 (grid0.coords t) = 1#1 := fun h => by have := (hcond3 t).mp h; omega
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists _; iexists _
    isplitr
    swap
    · isplitl [HS0]
      · unfold owns; iexists _; isplitr
        swap; · iexact HS0
        ipureintro; rfl
      isplitl [HS1]
      · unfold owns; iexists _; isplitr
        swap; · iexact HS1
        ipureintro; rfl
      iexact Hg
    ipureintro
    exact pureA m c t h0 hc1 hc2 hc3 hc4 S0 S1
  isplitl [Ho]; · iexact Ho
  isplitl [H0]; · iexact H0
  isplitl [H1]; · iexact H1
  isplitl [H2]; · iexact H2
  isplitl [H3]; · iexact H3
  iexists _; iexact H4

end Cert.Kernel.Hand

end
-- ==== Proof.Bits.SoundB.lean ====
import proofs.«100160_g20486994002746_cont_sun_c4_266_22_alg».proof.Proof.Bits.DataDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a later point of the first phase: one slab of the second scratch is stored; the output window is idle. -/
theorem soundB (c : Dev nD) (t : Fin cfg0.N) (h1 : 1 ≤ t.val) (h50 : t.val < 50) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : ¬ cond1 (grid0.coords t) := fun h => by have := (hcond1 t).mp h; omega
  have hc2 : k0_cond2 (grid0.coords t) = 1#1 := (hcond2 t).mpr h50
  have hc3 : ¬ k0_cond3 (grid0.coords t) = 1#1 := fun h => by have := (hcond3 t).mp h; omega
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists S0; iexists _
    isplitr
    swap
    · isplitl [HS0]; · iexact HS0
      isplitl [HS1]
      · unfold owns; iexists _; isplitr
        swap; · iexact HS1
        ipureintro; rfl
      iexact Hg
    ipureintro
    exact pureB m c t h1 h50 hc1 hc2 hc3 hc4 S0 S1 hinv
  isplitl [Ho]; · iexact Ho
  isplitl [H0]; · iexact H0
  isplitl [H1]; · iexact H1
  isplitl [H2]; · iexact H2
  isplitl [H3]; · iexact H3
  iexists _; iexact H4

end Cert.Kernel.Hand

end
-- ==== Proof.Bits.SoundC.lean ====
import proofs.«100160_g20486994002746_cont_sun_c4_266_22_alg».proof.Proof.Bits.DataDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a point of the second phase: one slab of the first scratch is stored; the output window is idle. -/
theorem soundC (c : Dev nD) (t : Fin cfg0.N) (h50 : 50 ≤ t.val) (h100 : t.val < 100) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : ¬ cond1 (grid0.coords t) := fun h => by have := (hcond1 t).mp h; omega
  have hc2 : ¬ k0_cond2 (grid0.coords t) = 1#1 := fun h => by have := (hcond2 t).mp h; omega
  have hc3 : k0_cond3 (grid0.coords t) = 1#1 := (hcond3 t).mpr ⟨h50, h100⟩
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists _; iexists S1
    isplitr
    swap
    · isplitl [HS0]
      · unfold owns; iexists _; isplitr
        swap; · iexact HS0
        ipureintro; rfl
      isplitl [HS1]; · iexact HS1
      iexact Hg
    ipureintro
    exact pureC m c t h50 h100 hc1 hc2 hc3 hc4 S0 S1 hinv
  isplitl [Ho]; · iexact Ho
  isplitl [H0]; · iexact H0
  isplitl [H1]; · iexact H1
  isplitl [H2]; · iexact H2
  isplitl [H3]; · iexact H3
  iexists _; iexact H4

end Cert.Kernel.Hand

end
-- ==== Proof.Bits.SoundD.lean ====
import proofs.«100160_g20486994002746_cont_sun_c4_266_22_alg».proof.Proof.Bits.DataDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a point of the last phase: the scratch buffers are only loaded, the output block is stored whole. -/
theorem soundD (c : Dev nD) (t : Fin cfg0.N) (h100 : 100 ≤ t.val) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hc1 : ¬ cond1 (grid0.coords t) := fun h => by have := (hcond1 t).mp h; omega
  have hc2 : ¬ k0_cond2 (grid0.coords t) = 1#1 := fun h => by have := (hcond2 t).mp h; omega
  have hc3 : ¬ k0_cond3 (grid0.coords t) = 1#1 := fun h => by have := (hcond3 t).mp h; omega
  have hc4 : k0_cond4 (grid0.coords t) = 1#1 := (hcond4 t).mpr h100
  rw [leaves4_live m c t h100]
  iintro ⟨⟨%S0, %S1, %hinv, HS0, HS1, Hg⟩, Ho, ⟨%d0, H0⟩, ⟨%d1, H1⟩, ⟨%d2, H2⟩, ⟨%d3, H3⟩, ⟨%d4, H4⟩⟩
  iapply ((runD c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists S0; iexists S1
    isplitr; · ipureintro; exact inv_stepD _ _ _ _ t.val h100 S0 S1 hinv
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact pureD m c t h100 hc1 hc2 hc3 hc4 S0 S1 hinv _

end Cert.Kernel.Hand

end
-- ==== Proof.Bits.Data.lean ====
import proofs.«100160_g20486994002746_cont_sun_c4_266_22_alg».proof.Proof.Bits.SoundA
import proofs.«100160_g20486994002746_cont_sun_c4_266_22_alg».proof.Proof.Bits.SoundB
import proofs.«100160_g20486994002746_cont_sun_c4_266_22_alg».proof.Proof.Bits.SoundC
import proofs.«100160_g20486994002746_cont_sun_c4_266_22_alg».proof.Proof.Bits.SoundD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point is in exactly one of the four phases' cases. -/
theorem sound_body (c : Dev nD) (t : Fin cfg0.N) :
    bodyPre m c t ⊢ wp frame (wpE (defs₀ (F := F)) Variants.none c none) Set.univ (bodyAt0 t) (fun _ => bodyPost m c t) := by
  by_cases h100 : 100 ≤ t.val
  · exact soundD m c t h100
  · by_cases h50 : 50 ≤ t.val
    · exact soundC m c t h50 (by omega)
    · by_cases h0 : t.val = 0
      · exact soundA m c t h0
      · exact soundB m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩⟩, Hg⟩
  iexists d0; iexists d1
  isplitr; · ipureintro; exact inv_zero _ _ _ _ d0 d1
  isplitl [HS0]; · iexact HS0
  isplitl [HS1]; · iexact HS1
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%S0, %S1, %hinv, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Conds.lean ====
import proofs.«100160_g20486994002746_cont_sun_c4_266_22_alg».proof.Proof.Gen.KernelIdeal.Frame
import proofs.«100160_g20486994002746_cont_sun_c4_266_22_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Facts₀

variable {F : FTy → Type} [FloatOps F]

local notation "𝕄" => MT nD τ sig Unit (Elt F) ℕ (UR sig nD τ) ℕ

/-- The first branch's condition (the grid coordinate is zero), as the kernel computes it. -/
abbrev cond1 (i : grid0.Coords) : Prop :=
  Scalar.cmpi .ne (Scalar.extui (Scalar.cmpi .eq (BitVec.ofNat 32 (i 0).val) 0#32)) 0#32 = 1#1

end Cert.KernelIdeal.Hand

end
-- ==== Proof.RunA.lean ====
import proofs.«100160_g20486994002746_cont_sun_c4_266_22_alg».proof.Proof.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Facts₀

variable {F : FTy → Type} [FloatOps F]

local notation "𝕄" => MT nD τ sig Unit (Elt F) ℕ (UR sig nD τ) ℕ

variable (c : Dev nD)

set_option maxHeartbeats 4000000 in
/-- The body at the first grid point: the product x·W1 is stored over the whole first scratch, then rows 0..199 of the
    second scratch are stored from the adjacency slab and the first scratch just written. The pieces each scratch ends
    with are found by the run. -/
noncomputable def runA (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : cond1 i) (hc2 : k0_cond2 i = 1#1) (hc3 : ¬ k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    Σ' (LS0 : List (View.Piece (Elt F) S10000x128 .f32)), { LS1 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread xs0) LS0) ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, ?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    iexact H7

end Cert.KernelIdeal.Hand

end
-- ==== Proof.RunB.lean ====
import proofs.«100160_g20486994002746_cont_sun_c4_266_22_alg».proof.Proof.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Facts₀

variable {F : FTy → Type} [FloatOps F]

local notation "𝕄" => MT nD τ sig Unit (Elt F) ℕ (UR sig nD τ) ℕ

variable (c : Dev nD)

set_option maxHeartbeats 4000000 in
/-- The body at a later point of the first phase: one slab of 200 rows of the second scratch is stored, computed from
    the adjacency slab, the first scratch (read whole) and the fused head weights. -/
noncomputable def runB (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : k0_cond2 i = 1#1) (hc3 : ¬ k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    { LS1 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ (arg7.view.loc (c : Thread nD τ) ↦[arg7.view.set]{fullShare} arg7.view.writes (Elt F) (harg7.unread xs1) LS1)) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexact H7

end Cert.KernelIdeal.Hand

end
-- ==== Proof.RunC.lean ====
import proofs.«100160_g20486994002746_cont_sun_c4_266_22_alg».proof.Proof.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Facts₀

variable {F : FTy → Type} [FloatOps F]

local notation "𝕄" => MT nD τ sig Unit (Elt F) ℕ (UR sig nD τ) ℕ

variable (c : Dev nD)

set_option maxHeartbeats 4000000 in
/-- The body at a point of the second phase: one slab of 200 rows of the first 64 lanes of the first scratch is
    stored, computed from the adjacency slab and the second scratch (read whole). -/
noncomputable def runC (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : ¬ k0_cond2 i = 1#1) (hc3 : k0_cond3 i = 1#1) (hc4 : ¬ k0_cond4 i = 1#1)
    (x1 : Vec F S10000x128 .f32) (x2 : Vec F S128x128 .f32) (x3 : Vec F S200x10000 .f32) (x4 : Vec F S128x128 .f32)
    (xs0 xs1 : Vec F S10000x128 .f32) :
    { LS0 : List (View.Piece (Elt F) S10000x128 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread xs0) LS0) ∗ owns (c : Thread nD τ) arg7 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexact H6
    iexists _; isplitr; · ipureintro; exact harg7.read_unread _
    iexact H7

end Cert.KernelIdeal.Hand

end
-- ==== Proof.RunD.lean ====
import proofs.«100160_g20486994002746_cont_sun_c4_266_22_alg».proof.Proof.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Facts₀

variable {F : FTy → Type} [FloatOps F]

local notation "𝕄" => MT nD τ sig Unit (Elt F) ℕ (UR sig nD τ) ℕ

variable (c : Dev nD)

set_option maxHeartbeats 4000000 in
/-- The body at a point of the last phase: the output block is stored whole, computed from 400 rows and from all
    rows of the first 64 lanes of the first scratch. -/
noncomputable def runD (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole)
    (hc1 : ¬ cond1 i) (hc2 : ¬ k0_cond2 i = 1#1) (hc3 : ¬ k0_cond3 i = 1#1) (hc4 : k0_cond4 i = 1#1)
    (x1 : Vec F S10000x128 .f32) (x2 : Vec F S128x128 .f32) (x3 : Vec F S200x10000 .f32) (x4 : Vec F S128x128 .f32)
    (xs0 xs1 : Vec F S10000x128 .f32) :
    { L5 : List (View.Piece (Elt F) S400x10000 .f32) //
      ∀ (x5 : Vec F S400x10000 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xs0 ∗ owns (c : Thread nD τ) arg7 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ (arg5.view.loc (c : Thread nD τ) ↦[arg5.view.set]{fullShare} arg5.view.writes (Elt F) (harg5.unread x5) L5) ∗ owns (c : Thread nD τ) arg6 fullShare xs0 ∗ owns (c : Thread nD τ) arg7 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7) K } := by
  refine ⟨?_, fun x5 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := first | exact hc1 | exact hc2 | exact hc3 | exact hc4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexact H5
    isplitl [H6]
    · iexists _; isplitr; · ipureintro; exact harg6.read_unread _
      iexact H6
    iexists _; isplitr; · ipureintro; exact harg7.read_unread _
    iexact H7

end Cert.KernelIdeal.Hand

end
-- ==== Proof.Pieces.lean ====
import proofs.«100160_g20486994002746_cont_sun_c4_266_22_alg».proof.Proof.RunD
import Idealize.ShloMosaic.Lib.WholeRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD)

/-- The zero offsets of a rank-two rectangle, as the constant function. -/
theorem zero2 : (![0, 0] : Fin 2 → ℕ) = fun _ => 0 := by
  funext a; match a with | ⟨0, _⟩ => rfl | ⟨1, _⟩ => rfl

/-- At the first point the first scratch ends with ONE piece: the product of the two loaded blocks, over the whole buffer. -/
theorem piecesA0 (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runA c i arg1 harg1 arg2 harg2 arg3 harg3 arg4 harg4 arg5 harg5 arg6 harg6 arg7 harg7 hc1 hc2 hc3 hc4 x1 x2 x3 x4 xs0 xs1).1 = [⟨Rect.unit (s := S10000x128) ![0, 0] S10000x128.size inb_S10000x128_S10000x128_0_0, k0_pay1 x1 x2⟩] := by
  unfold runA; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At the first point the second scratch ends with ONE piece, rows 0..199: the slab computed from the product just stored. -/
theorem piecesA1 (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runA c i arg1 harg1 arg2 harg2 arg3 harg3 arg4 harg4 arg5 harg5 arg6 harg6 arg7 harg7 hc1 hc2 hc3 hc4 x1 x2 x3 x4 xs0 xs1).2.1 = [⟨Rect.unit (s := S10000x128) (k0_off1 i) S200x128.size (k0_off1_inb i hc2), k0_pay2 x3 (k0_pay1 x1 x2) x4⟩] := by
  unfold runA; dsimp only; sl_unfold_words
  simp only [View.readAt_eq_ld, Memref.IsWhole.read_unread, View.ld_unit_zero (S := S10000x128) zero2, View.ld_unit_zero (S := S128x128) zero2, View.ld_unit_zero (S := S200x10000) zero2, View.readCov_unit_zero (S := S10000x128) _ zero2]
  try rfl

/-- At a later point of the first phase the second scratch ends with ONE piece: the slab computed from the first scratch as found. -/
theorem piecesB (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : k0_cond2 i = 1#1) (hc3 : ¬ k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runB c i arg1 harg1 arg2 harg2 arg3 harg3 arg4 harg4 arg5 harg5 arg6 harg6 arg7 harg7 hc1 hc2 hc3 hc4 x1 x2 x3 x4 xs0 xs1).1 = [⟨Rect.unit (s := S10000x128) (k0_off1 i) S200x128.size (k0_off1_inb i hc2), k0_pay2 x3 xs0 x4⟩] := by
  unfold runB; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At a point of the second phase the first scratch ends with ONE piece, 200 rows of its first 64 lanes. -/
theorem piecesC (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : ¬ k0_cond2 i = 1#1) (hc3 : k0_cond3 i = 1#1) (hc4 : ¬ k0_cond4 i = 1#1) (x1 : Vec F S10000x128 .f32) (x2 : Vec F S128x128 .f32) (x3 : Vec F S200x10000 .f32) (x4 : Vec F S128x128 .f32) (xs0 xs1 : Vec F S10000x128 .f32) :
    (runC c i arg1 harg1 arg2 harg2 arg3 harg3 arg4 harg4 arg5 harg5 arg6 harg6 arg7 harg7 hc1 hc2 hc3 hc4 x1 x2 x3 x4 xs0 xs1).1 = [⟨Rect.unit (s := S10000x128) (k0_off2 i) S200x64.size (k0_off2_inb i hc3), k0_pay3 x3 xs1⟩] := by
  unfold runC; dsimp only; sl_unfold_words
  simp only [View.readAt_eq_ld, Memref.IsWhole.read_unread, View.ld_unit_zero (S := S10000x128) zero2, View.ld_unit_zero (S := S128x128) zero2, View.ld_unit_zero (S := S200x10000) zero2]
  try rfl

/-- At a point of the last phase the output block is ONE whole piece, computed from two loads of the first scratch. -/
theorem piecesD (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S10000x128 .f32) (harg6 : arg6.IsWhole) (arg7 : Memref sig .tc .vmem S10000x128 .f32) (harg7 : arg7.IsWhole) (hc1 : ¬ cond1 i) (hc2 : ¬ k0_cond2 i = 1#1) (hc3 : ¬ k0_cond3 i = 1#1) (hc4 : k0_cond4 i = 1#1) (x1 : Vec F S10000x128 .f32) (x2 : Vec F S128x128 .f32) (x3 : Vec F S200x10000 .f32) (x4 : Vec F S128x128 .f32) (xs0 xs1 : Vec F S10000x128 .f32) :
    (runD c i arg1 harg1 arg2 harg2 arg3 harg3 arg4 harg4 arg5 harg5 arg6 harg6 arg7 harg7 hc1 hc2 hc3 hc4 x1 x2 x3 x4 xs0 xs1).1 = [⟨Rect.unit (s := S400x10000) ![0, 0] S400x10000.size inb_S400x10000_S400x10000_0_0,
      k0_pay4 (View.ld xs0 (Rect.unit (s := S10000x128) (k0_off3 i) S400x64.size (k0_off3_inb i hc4)))
        (View.ld xs0 (Rect.unit (s := S10000x128) ![0, 0] S10000x64.size inb_S10000x128_S10000x64_0_0))⟩] := by
  unfold runD; dsimp only; sl_unfold_words
  simp only [View.readAt_eq_ld, Memref.IsWhole.read_unread]
  try rfl

end Cert.KernelIdeal.Hand

end
-- ==== Proof.State.lean ====
import proofs.«100160_g20486994002746_cont_sun_c4_266_22_alg».proof.Proof.Gen.KernelIdeal.Skeleton
import Idealize.ShloMosaic.Lib.ValueIdx
import Idealize.ShloMosaic.Lib.WritesUnit
import Idealize.ShloMosaic.Lib.WholeRead

set_option maxRecDepth 16384

noncomputable section

namespace Cert.KernelIdeal.Hand

open Idealize.ShloMosaic Idealize.ShloMosaic.ValueIdx Cert.KernelIdeal.Gen

variable {F : FTy → Type} [FloatOps F]

/-! ## What the two scratch buffers hold, in closed form

The kernel keeps three intermediate arrays in two scratch buffers. With `X`, `W1`, `W2` the staged operands and
`A n` the adjacency slab staged at grid point `n`:
the product X·W1 (all of the first scratch after point 0); the hidden layer's projection, slab `j` of 200 rows
computed at point `j` from slab `A j` (the second scratch, complete after point 49); and the latent array, slab `j`
computed at point `50 + j` from `A (50 + j)` into the first 64 lanes of the first scratch (complete after point 99). -/

section Spec

variable (X : ℕ → Vec F S10000x128 .f32) (W1 W2 : ℕ → Vec F S128x128 .f32) (A : ℕ → Vec F S200x10000 .f32)

/-- The first scratch after the first point: the product of the feature block with the first weights. -/
def specXW : Vec F S10000x128 .f32 := k0_pay1 (X 0) (W1 0)

/-- The second scratch once complete: row `r` is row `r % 200` of the slab computed from adjacency slab `r / 200`. -/
def specHW : Vec F S10000x128 .f32 := fun y =>
  k0_pay2 (A ((y 0).val / 200)) (specXW X W1) (W2 ((y 0).val / 200))
    (ix2 (n0 := 200) (n1 := 128) ⟨(y 0).val % 200, Nat.mod_lt _ (by decide)⟩ ⟨(y 1).val, idx2_lt1 y⟩)

/-- The first scratch once the second phase is over: in the first 64 lanes, row `r` is row `r % 200` of the slab
    computed at point `50 + r / 200`; the other lanes still hold the product. -/
def specZ : Vec F S10000x128 .f32 := fun y =>
  if h : (y 1).val < 64 then
    k0_pay3 (A (50 + (y 0).val / 200)) (specHW X W1 W2 A)
      (ix2 (n0 := 200) (n1 := 64) ⟨(y 0).val % 200, Nat.mod_lt _ (by decide)⟩ ⟨(y 1).val, h⟩)
  else specXW X W1 y

/-- What is known of the two scratch buffers' contents `S0`, `S1` before grid point `n`: during the first phase the
    first scratch is the product; the rows of the second scratch stored so far (all of them from point 50 on) are the
    projection's; the rows of the first 64 lanes of the first scratch stored so far in the second phase (all of them
    from point 100 on) are the latent array's. -/
structure Inv (n : ℕ) (S0 S1 : Vec F S10000x128 .f32) : Prop where
  first : 1 ≤ n → n ≤ 50 → S0 = specXW X W1
  rows1 : ∀ y : S10000x128.Idx, (y 0).val < 200 * n → S1 y = specHW X W1 W2 A y
  rows0 : ∀ y : S10000x128.Idx, (y 0).val + 10000 < 200 * n → (y 1).val < 64 → S0 y = specZ X W1 W2 A y

/-- Before the first point nothing is known, and nothing is claimed. -/
theorem inv_zero (S0 S1 : Vec F S10000x128 .f32) : Inv X W1 W2 A 0 S0 S1 :=
  ⟨fun h _ => absurd h (by decide), fun y h => absurd h (by omega), fun y h _ => absurd h (by omega)⟩

variable (a6 a7 : Memref sig .tc .vmem S10000x128 .f32) (h6 : a6.IsWhole) (h7 : a7.IsWhole)

/-- The first point: the whole first scratch is overwritten by the product, and rows 0..199 of the second by the first slab. -/
theorem inv_stepA (n : ℕ) (hn : n = 0) (S0 S1 : Vec F S10000x128 .f32) (off : Fin 2 → ℕ) (hoff : off = ![200 * n, 0])
    (inb0 : ∀ a, (![0, 0] : Fin 2 → ℕ) a + S10000x128.size a ≤ S10000x128.size a)
    (inb1 : ∀ a, off a + S200x128.size a ≤ S10000x128.size a) :
    Inv X W1 W2 A (n + 1)
      (a6.view.read (Elt F) (a6.view.writes (Elt F) (h6.unread S0)
        [⟨Rect.unit (s := S10000x128) ![0, 0] S10000x128.size inb0, k0_pay1 (X n) (W1 n)⟩]))
      (a7.view.read (Elt F) (a7.view.writes (Elt F) (h7.unread S1)
        [⟨Rect.unit (s := S10000x128) off S200x128.size inb1, k0_pay2 (A n) (k0_pay1 (X n) (W1 n)) (W2 n)⟩])) := by
  subst hn
  refine ⟨fun _ _ => ?_, fun y hy => ?_, fun y hy _ => absurd hy (by omega)⟩
  · funext y
    exact View.read_writes_cons_rows_of_mem a6.view (h6.unread S0) inb0 (k0_pay1 (X 0) (W1 0)) [] y y rfl (Nat.zero_add _).symm rfl
  · have h := View.read_writes_cons_rows_of_mem a7.view (h7.unread S1) inb1 (k0_pay2 (A 0) (k0_pay1 (X 0) (W1 0)) (W2 0)) [] y
      (ix2 (n0 := 200) (n1 := 128) ⟨(y 0).val % 200, Nat.mod_lt _ (by decide)⟩ ⟨(y 1).val, idx2_lt1 y⟩) hoff
      (by show (y 0).val = 200 * 0 + (y 0).val % 200; omega) rfl
    rw [h]; unfold specHW specXW
    have e : (y 0).val / 200 = 0 := by omega
    rw [e]

/-- A later point `n` of the first phase: rows 200n..200n+199 of the second scratch are overwritten by slab `n`. -/
theorem inv_stepB (n : ℕ) (hn1 : 1 ≤ n) (hn : n < 50) (S0 S1 : Vec F S10000x128 .f32) (hinv : Inv X W1 W2 A n S0 S1)
    (off : Fin 2 → ℕ) (hoff : off = ![200 * n, 0]) (inb1 : ∀ a, off a + S200x128.size a ≤ S10000x128.size a) :
    Inv X W1 W2 A (n + 1) S0
      (a7.view.read (Elt F) (a7.view.writes (Elt F) (h7.unread S1)
        [⟨Rect.unit (s := S10000x128) off S200x128.size inb1, k0_pay2 (A n) S0 (W2 n)⟩])) := by
  refine ⟨fun _ _ => hinv.first hn1 (by omega), fun y hy => ?_, fun y hy _ => absurd hy (by omega)⟩
  by_cases hlt : (y 0).val < 200 * n
  · rw [View.read_writes_cons_rows_of_not_mem a7.view (h7.unread S1) inb1 _ [] y hoff rfl (Or.inl hlt)]
    rw [View.writes_nil, h7.read_unread]
    exact hinv.rows1 y hlt
  · have h := View.read_writes_cons_rows_of_mem a7.view (h7.unread S1) inb1 (k0_pay2 (A n) S0 (W2 n)) [] y
      (ix2 (n0 := 200) (n1 := 128) ⟨(y 0).val % 200, Nat.mod_lt _ (by decide)⟩ ⟨(y 1).val, idx2_lt1 y⟩) hoff
      (by show (y 0).val = 200 * n + (y 0).val % 200; omega) rfl
    rw [h, hinv.first hn1 (by omega)]; unfold specHW
    have e : (y 0).val / 200 = n := by omega
    rw [e]

/-- A point `n` of the second phase: rows 200(n-50).. of the first 64 lanes of the first scratch are overwritten by
    the latent slab computed from the complete second scratch. -/
theorem inv_stepC (n : ℕ) (hn0 : 50 ≤ n) (hn : n < 100) (S0 S1 : Vec F S10000x128 .f32) (hinv : Inv X W1 W2 A n S0 S1)
    (off : Fin 2 → ℕ) (hoff : off = ![200 * (n - 50), 0]) (inb : ∀ a, off a + S200x64.size a ≤ S10000x128.size a) :
    Inv X W1 W2 A (n + 1)
      (a6.view.read (Elt F) (a6.view.writes (Elt F) (h6.unread S0)
        [⟨Rect.unit (s := S10000x128) off S200x64.size inb, k0_pay3 (A n) S1⟩])) S1 := by
  have hS1 : S1 = specHW X W1 W2 A := funext fun y => hinv.rows1 y (by have := idx2_lt0 y; omega)
  refine ⟨fun _ h => absurd h (by omega), fun y hy => hinv.rows1 y (by have := idx2_lt0 y; omega), fun y hy hq => ?_⟩
  by_cases hlt : (y 0).val + 10000 < 200 * n
  · rw [View.read_writes_cons_unit_of_not_mem a6.view (h6.unread S0) inb _ [] y hoff (0 : Fin 2)
      (Or.inl (by show (y 0).val < 200 * (n - 50); omega))]
    rw [View.writes_nil, h6.read_unread]
    exact hinv.rows0 y hlt hq
  · have h := View.read_writes_cons_unit_of_mem a6.view (h6.unread S0) inb (k0_pay3 (A n) S1) [] y
      (ix2 (n0 := 200) (n1 := 64) ⟨(y 0).val % 200, Nat.mod_lt _ (by decide)⟩ ⟨(y 1).val, hq⟩) hoff
      (Fin.forall_fin_two.mpr ⟨by show (y 0).val = 200 * (n - 50) + (y 0).val % 200; omega,
        by show (y 1).val = 0 + (y 1).val; omega⟩)
    rw [h, hS1]; unfold specZ; rw [dif_pos hq]
    have e : 50 + (y 0).val / 200 = n := by omega
    rw [e]

/-- A point of the last phase stores into neither scratch. -/
theorem inv_stepD (n : ℕ) (hn : 100 ≤ n) (S0 S1 : Vec F S10000x128 .f32) (hinv : Inv X W1 W2 A n S0 S1) :
    Inv X W1 W2 A (n + 1) S0 S1 :=
  ⟨fun _ h => absurd h (by omega), fun y _ => hinv.rows1 y (by have := idx2_lt0 y; omega),
    fun y _ hq => hinv.rows0 y (by have := idx2_lt0 y; omega) hq⟩

/-- In the last phase a load of the first scratch that stays within the first 64 lanes reads the latent array. -/
theorem ld_eq_of_inv (n : ℕ) (hn : 100 ≤ n) (S0 S1 : Vec F S10000x128 .f32) (hinv : Inv X W1 W2 A n S0 S1)
    (r : Rect S10000x128) (hr : ∀ p, ((r.idx p) 1).val < 64) :
    View.ld (Val := Elt F) S0 r = View.ld (Val := Elt F) (specZ X W1 W2 A) r :=
  funext fun p => hinv.rows0 _ (by have := idx2_lt0 (r.idx p); omega) (hr p)

end Spec

/-- One store through the whole of a rank-two buffer leaves its payload. -/
theorem read_writes_whole2 {sg : RefSig} {κ : Kind} {sp : Space} {e : EltTy} {Val : EltTy → Type} {d : Fin 2 → ℕ}
    (v : View sg κ sp (⟨2, d⟩ : Shape) e) (f : v.ty.Contents Val)
    (inb : ∀ a : Fin 2, (![0, 0] : Fin 2 → ℕ) a + d a ≤ d a)
    (w : (Rect.unit (s := ⟨2, d⟩) ![0, 0] d inb).shape.Idx → Val e) :
    v.read Val (v.writes Val f [⟨Rect.unit (s := ⟨2, d⟩) ![0, 0] d inb, w⟩]) = w :=
  funext fun y => View.read_writes_cons_rows_of_mem v f inb w [] y y rfl (Nat.zero_add _).symm rfl

end Cert.KernelIdeal.Hand

end
-- ==== Proof.GridFacts.lean ====
import proofs.«100160_g20486994002746_cont_sun_c4_266_22_alg».proof.Proof.Pieces
import proofs.«100160_g20486994002746_cont_sun_c4_266_22_alg».proof.Proof.State

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branch conditions, the store offsets and the idle table, decided over the 125 grid points -/

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, k0_cond2 (grid0.coords t) = 1#1 ↔ t.val < 50 :=
  (by decide +kernel : ∀ t : Fin grid0.N, k0_cond2 (grid0.coords t) = 1#1 ↔ t.val < 50)
theorem hcond3 : ∀ t : Fin cfg0.N, k0_cond3 (grid0.coords t) = 1#1 ↔ (50 ≤ t.val ∧ t.val < 100) :=
  (by decide +kernel : ∀ t : Fin grid0.N, k0_cond3 (grid0.coords t) = 1#1 ↔ (50 ≤ t.val ∧ t.val < 100))
theorem hcond4 : ∀ t : Fin cfg0.N, k0_cond4 (grid0.coords t) = 1#1 ↔ 100 ≤ t.val :=
  (by decide +kernel : ∀ t : Fin grid0.N, k0_cond4 (grid0.coords t) = 1#1 ↔ 100 ≤ t.val)

/-- In the first phase the slab stored into the second scratch starts at row 200·t. -/
theorem hoff1 : ∀ t : Fin cfg0.N, t.val < 50 → k0_off1 (grid0.coords t) = ![200 * t.val, 0] :=
  (by decide +kernel : ∀ t : Fin grid0.N, t.val < 50 → k0_off1 (grid0.coords t) = ![200 * t.val, 0])
/-- In the second phase the slab stored into the first scratch starts at row 200·(t − 50). -/
theorem hoff2 : ∀ t : Fin cfg0.N, 50 ≤ t.val → t.val < 100 → k0_off2 (grid0.coords t) = ![200 * (t.val - 50), 0] :=
  (by decide +kernel : ∀ t : Fin grid0.N, 50 ≤ t.val → t.val < 100 → k0_off2 (grid0.coords t) = ![200 * (t.val - 50), 0])
/-- In the last phase the rows loaded for the output block start at row 400·(t − 100). -/
theorem hoff3 : ∀ t : Fin cfg0.N, 100 ≤ t.val → k0_off3 (grid0.coords t) = ![400 * (t.val - 100), 0] :=
  (by decide +kernel : ∀ t : Fin grid0.N, 100 ≤ t.val → k0_off3 (grid0.coords t) = ![400 * (t.val - 100), 0])

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Before the last phase the output window is idle and is not written back. -/
theorem idleAt4 : ∀ t : Fin cfg0.N, t.val < 100 → cfg0.idle 4 (grid0.coords t) = true := by decide +kernel
theorem noFlush4 : ∀ t : Fin cfg0.N, t.val < 100 → (cfg0.win 4).flush t = false := by decide +kernel
/-- In the last phase it is live, and every point writes its block back. -/
theorem liveAt4 : ∀ t : Fin cfg0.N, 100 ≤ t.val → cfg0.idle 4 (grid0.coords t) = false := by decide +kernel
theorem flush4 : ∀ t : Fin cfg0.N, 100 ≤ t.val → (cfg0.win 4).flush t = true := by decide +kernel

end Cert.KernelIdeal.Hand

end
-- ==== Proof.DataDefs.lean ====
import proofs.«100160_g20486994002746_cont_sun_c4_266_22_alg».proof.Proof.GridFacts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staged blocks and the scratch memrefs -/

/-- Grid point `n` (taken modulo the 125 points, so that a natural number names a point). -/
def pt (n : ℕ) : Fin cfg0.N := ⟨n % 125, Nat.mod_lt _ (by decide)⟩

theorem pt_val (t : Fin cfg0.N) : pt t.val = t :=
  Fin.ext (Nat.mod_eq_of_lt (lt_of_lt_of_eq t.isLt N_0))

/-- The feature block, the first weights, the fused head weights and the adjacency slab as staged at point `n`. -/
def aX (c : Dev nD) (n : ℕ) : Vec F S10000x128 .f32 := iblk m c 0 (pt n)
def aW1 (c : Dev nD) (n : ℕ) : Vec F S128x128 .f32 := iblk m c 1 (pt n)
def aW2 (c : Dev nD) (n : ℕ) : Vec F S128x128 .f32 := iblk m c 3 (pt n)
def aA (c : Dev nD) (n : ℕ) : Vec F S200x10000 .f32 := iblk m c 2 (pt n)

/-- Each window's current staging memref at point `t`, as the pipeline passes it, and its wholeness. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x10000 .f32 := win0_4.stage (cfg0.slots t 4)
abbrev hs4 (t : Fin cfg0.N) : (ms4 t).IsWhole := hstage0_4 ((cfg0.slots t 4).cast nbuf0_4)
/-- The two scratch operands: whole scoped buffers of the kernel's own. -/
abbrev scM0 : Memref sig .tc .vmem S10000x128 .f32 := Memref.whole cc0_scratch0
abbrev scM1 : Memref sig .tc .vmem S10000x128 .f32 := Memref.whole cc0_scratch1

/-- The class invariant with the two scratch operands as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The output block and the invariant -/

/-- The latent array as the first scratch holds it once the second phase is over (State.lean's closed form at the staged blocks). -/
def zArr (c : Dev nD) : Vec F S10000x128 .f32 := specZ (aX m c) (aW1 m c) (aW2 m c) (aA m c)

/-- What the body leaves in the output window's staging buffer at a point of the last phase: the decoder's block computed
    from 400 rows and from all rows of the latent array. (Elsewhere a placeholder nothing consults: the window is idle.) -/
def outAt (c : Dev nD) (t : Fin cfg0.N) : Vec F S400x10000 .f32 :=
  if h : k0_cond4 (grid0.coords t) = 1#1 then
    k0_pay4 (View.ld (Val := Elt F) (zArr m c) (Rect.unit (s := S10000x128) (k0_off3 (grid0.coords t)) S400x64.size (k0_off3_inb (grid0.coords t) h)))
      (View.ld (Val := Elt F) (zArr m c) (Rect.unit (s := S10000x128) ![0, 0] S10000x64.size inb_S10000x128_S10000x64_0_0))
  else fun _ => aW1 m c 0 (ValueIdx.ix2 (n0 := 128) (n1 := 128) ⟨0, by decide⟩ ⟨0, by decide⟩)

/-- The region invariant before position `n`: the two scratch buffers at SOME contents of which State.lean's `Inv` holds
    at `n`, and the generator register at some state. -/
def PhiS (c : Dev nD) (n : ℕ) : sProp 𝕄 :=
  iprop(∃ S0 S1, ⌜Inv (aX m c) (aW1 m c) (aW2 m c) (aA m c) n S0 S1⌝
    ∗ owns (c : Thread nD τ) scM0 fullShare S0 ∗ owns (c : Thread nD τ) scM1 fullShare S1 ∗ (∃ r, prngReg c r))

/-! ## The pipeline's proof data -/

/-- The proof data of the one pipeline on core `c`: the arrays as the region finds them; after the body each input's
    buffer at its block, the output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4_live (c : Dev nD) (t : Fin cfg0.N) (h : 100 ≤ t.val) :
    (dats m 0 c).leavesExact 4 t = owns (c : Thread nD τ) (ms4 t) fullShare (outAt m c t) := by
  unfold Dat.leavesExact; rw [liveAt4 t h, after4]

theorem aX_at (c : Dev nD) (t : Fin cfg0.N) : iblk m c 0 t = aX m c t.val := by
  unfold aX; rw [pt_val t]
theorem aW1_at (c : Dev nD) (t : Fin cfg0.N) : iblk m c 1 t = aW1 m c t.val := by
  unfold aW1; rw [pt_val t]
theorem aW2_at (c : Dev nD) (t : Fin cfg0.N) : iblk m c 3 t = aW2 m c t.val := by
  unfold aW2; rw [pt_val t]
theorem aA_at (c : Dev nD) (t : Fin cfg0.N) : iblk m c 2 t = aA m c t.val := by
  unfold aA; rw [pt_val t]

/-! ## What each case leaves, read back: the invariant at the next point, and the output block -/

/-- The first point establishes the invariant at position 1. -/
theorem pureA (c : Dev nD) (t : Fin cfg0.N) (h0 : t.val = 0) (hc1 : cond1 (grid0.coords t)) (hc2 : k0_cond2 (grid0.coords t) = 1#1) (hc3 : ¬ k0_cond3 (grid0.coords t) = 1#1) (hc4 : ¬ k0_cond4 (grid0.coords t) = 1#1) (S0 S1 : Vec F S10000x128 .f32) :
    Inv (aX m c) (aW1 m c) (aW2 m c) (aA m c) (t.val + 1)
      (scM0.view.read (Elt F) (scM0.view.writes (Elt F) ((Memref.isWhole_whole cc0_scratch0).unread S0) (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1))
      (scM1.view.read (Elt F) (scM1.view.writes (Elt F) ((Memref.isWhole_whole cc0_scratch1).unread S1) (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2.1)) := by
  rw [piecesA1, piecesA0, aX_at, aW1_at, aA_at, aW2_at]
  exact inv_stepA _ _ _ _ scM0 scM1 (Memref.isWhole_whole _) (Memref.isWhole_whole _) t.val h0 S0 S1 _
    (hoff1 t (by omega)) _ _

/-- A later point of the first phase carries the invariant one position on. -/
theorem pureB (c : Dev nD) (t : Fin cfg0.N) (h1 : 1 ≤ t.val) (h50 : t.val < 50) (hc1 : ¬ cond1 (grid0.coords t)) (hc2 : k0_cond2 (grid0.coords t) = 1#1) (hc3 : ¬ k0_cond3 (grid0.coords t) = 1#1) (hc4 : ¬ k0_cond4 (grid0.coords t) = 1#1) (S0 S1 : Vec F S10000x128 .f32)
    (hinv : Inv (aX m c) (aW1 m c) (aW2 m c) (aA m c) t.val S0 S1) :
    Inv (aX m c) (aW1 m c) (aW2 m c) (aA m c) (t.val + 1) S0
      (scM1.view.read (Elt F) (scM1.view.writes (Elt F) ((Memref.isWhole_whole cc0_scratch1).unread S1) (runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1)) := by
  rw [piecesB, aA_at, aW2_at]
  exact inv_stepB _ _ _ _ scM1 (Memref.isWhole_whole _) t.val h1 h50 S0 S1 hinv _ (hoff1 t h50) _

/-- A point of the second phase carries the invariant one position on. -/
theorem pureC (c : Dev nD) (t : Fin cfg0.N) (h50 : 50 ≤ t.val) (h100 : t.val < 100) (hc1 : ¬ cond1 (grid0.coords t)) (hc2 : ¬ k0_cond2 (grid0.coords t) = 1#1) (hc3 : k0_cond3 (grid0.coords t) = 1#1) (hc4 : ¬ k0_cond4 (grid0.coords t) = 1#1) (S0 S1 : Vec F S10000x128 .f32)
    (hinv : Inv (aX m c) (aW1 m c) (aW2 m c) (aA m c) t.val S0 S1) :
    Inv (aX m c) (aW1 m c) (aW2 m c) (aA m c) (t.val + 1)
      (scM0.view.read (Elt F) (scM0.view.writes (Elt F) ((Memref.isWhole_whole cc0_scratch0).unread S0) (runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1)) S1 := by
  rw [piecesC, aA_at]
  exact inv_stepC _ _ _ _ scM0 (Memref.isWhole_whole _) t.val h50 h100 S0 S1 hinv _ (hoff2 t h50 h100) _

/-- At a point of the last phase the stored block is the proof data's closed term: both loads stay within the lanes the invariant describes. -/
theorem pureD (c : Dev nD) (t : Fin cfg0.N) (h100 : 100 ≤ t.val) (hc1 : ¬ cond1 (grid0.coords t)) (hc2 : ¬ k0_cond2 (grid0.coords t) = 1#1) (hc3 : ¬ k0_cond3 (grid0.coords t) = 1#1) (hc4 : k0_cond4 (grid0.coords t) = 1#1) (S0 S1 : Vec F S10000x128 .f32)
    (hinv : Inv (aX m c) (aW1 m c) (aW2 m c) (aA m c) t.val S0 S1) (x5 : Vec F S400x10000 .f32) :
    (ms4 t).view.read (Elt F) ((ms4 t).view.writes (Elt F) ((hs4 t).unread x5) (runD c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).1) = outAt m c t := by
  rw [piecesD, read_writes_whole2]
  unfold outAt; rw [dif_pos hc4]
  rw [ld_eq_of_inv _ _ _ _ t.val h100 S0 S1 hinv _ (fun p => by
      have e : k0_off3 (grid0.coords t) 1 = 0 := rfl
      have hp : (p 1).val < 64 := (p 1).isLt
      show k0_off3 (grid0.coords t) 1 + 1 * (p 1).val < 64
      omega),
    ld_eq_of_inv _ _ _ _ t.val h100 S0 S1 hinv _ (fun p => by
      have hp : (p 1).val < 64 := (p 1).isLt
      show 0 + 1 * (p 1).val < 64
      omega)]
  rfl

end Cert.KernelIdeal.Hand

end
-- ==== Proof.SoundA.lean ====
import proofs.«100160_g20486994002746_cont_sun_c4_266_22_alg».proof.Proof.DataDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at the first point: the first scratch is stored whole, then the first slab of the second; the output window is idle. -/
theorem soundA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : cond1 (grid0.coords t) := (hcond1 t).mpr h0
  have hc2 : k0_cond2 (grid0.coords t) = 1#1 := (hcond2 t).mpr (by omega)
  have hc3 : ¬ k0_cond3 (grid0.coords t) = 1#1 := fun h => by have := (hcond3 t).mp h; omega
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists _; iexists _
    isplitr
    swap
    · isplitl [HS0]
      · unfold owns; iexists _; isplitr
        swap; · iexact HS0
        ipureintro; rfl
      isplitl [HS1]
      · unfold owns; iexists _; isplitr
        swap; · iexact HS1
        ipureintro; rfl
      iexact Hg
    ipureintro
    exact pureA m c t h0 hc1 hc2 hc3 hc4 S0 S1
  isplitl [Ho]; · iexact Ho
  isplitl [H0]; · iexact H0
  isplitl [H1]; · iexact H1
  isplitl [H2]; · iexact H2
  isplitl [H3]; · iexact H3
  iexists _; iexact H4

end Cert.KernelIdeal.Hand

end
-- ==== Proof.SoundB.lean ====
import proofs.«100160_g20486994002746_cont_sun_c4_266_22_alg».proof.Proof.DataDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a later point of the first phase: one slab of the second scratch is stored; the output window is idle. -/
theorem soundB (c : Dev nD) (t : Fin cfg0.N) (h1 : 1 ≤ t.val) (h50 : t.val < 50) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : ¬ cond1 (grid0.coords t) := fun h => by have := (hcond1 t).mp h; omega
  have hc2 : k0_cond2 (grid0.coords t) = 1#1 := (hcond2 t).mpr h50
  have hc3 : ¬ k0_cond3 (grid0.coords t) = 1#1 := fun h => by have := (hcond3 t).mp h; omega
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists S0; iexists _
    isplitr
    swap
    · isplitl [HS0]; · iexact HS0
      isplitl [HS1]
      · unfold owns; iexists _; isplitr
        swap; · iexact HS1
        ipureintro; rfl
      iexact Hg
    ipureintro
    exact pureB m c t h1 h50 hc1 hc2 hc3 hc4 S0 S1 hinv
  isplitl [Ho]; · iexact Ho
  isplitl [H0]; · iexact H0
  isplitl [H1]; · iexact H1
  isplitl [H2]; · iexact H2
  isplitl [H3]; · iexact H3
  iexists _; iexact H4

end Cert.KernelIdeal.Hand

end
-- ==== Proof.SoundC.lean ====
import proofs.«100160_g20486994002746_cont_sun_c4_266_22_alg».proof.Proof.DataDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a point of the second phase: one slab of the first scratch is stored; the output window is idle. -/
theorem soundC (c : Dev nD) (t : Fin cfg0.N) (h50 : 50 ≤ t.val) (h100 : t.val < 100) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hidle : (dats m 0 c).leavesExact 4 t = iprop(∃ d, owns (c : Thread nD τ) (ms4 t) fullShare ((dats m 0 c).before 4 t d)) :=
    Dat.leavesExact_idle (dats m 0 c) 4 t (idleAt4 t (by omega)) (noFlush4 t (by omega))
  rw [hidle]
  have hc1 : ¬ cond1 (grid0.coords t) := fun h => by have := (hcond1 t).mp h; omega
  have hc2 : ¬ k0_cond2 (grid0.coords t) = 1#1 := fun h => by have := (hcond2 t).mp h; omega
  have hc3 : k0_cond3 (grid0.coords t) = 1#1 := (hcond3 t).mpr ⟨h50, h100⟩
  have hc4 : ¬ k0_cond4 (grid0.coords t) = 1#1 := fun h => by have := (hcond4 t).mp h; omega
  iintro ⟨⟨%S0, %S1, %hinv, HS0, HS1, Hg⟩, Ho, ⟨%d0, H0⟩, ⟨%d1, H1⟩, ⟨%d2, H2⟩, ⟨%d3, H3⟩, ⟨%d4, H4⟩⟩
  iapply ((runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists _; iexists S1
    isplitr
    swap
    · isplitl [HS0]
      · unfold owns; iexists _; isplitr
        swap; · iexact HS0
        ipureintro; rfl
      isplitl [HS1]; · iexact HS1
      iexact Hg
    ipureintro
    exact pureC m c t h50 h100 hc1 hc2 hc3 hc4 S0 S1 hinv
  isplitl [Ho]; · iexact Ho
  isplitl [H0]; · iexact H0
  isplitl [H1]; · iexact H1
  isplitl [H2]; · iexact H2
  isplitl [H3]; · iexact H3
  iexists _; iexact H4

end Cert.KernelIdeal.Hand

end
-- ==== Proof.SoundD.lean ====
import proofs.«100160_g20486994002746_cont_sun_c4_266_22_alg».proof.Proof.DataDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body obligation at a point of the last phase: the scratch buffers are only loaded, the output block is stored whole. -/
theorem soundD (c : Dev nD) (t : Fin cfg0.N) (h100 : 100 ≤ t.val) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  unfold PhiS
  have hN : t.val < 125 := lt_of_lt_of_eq t.isLt N_0
  have hc1 : ¬ cond1 (grid0.coords t) := fun h => by have := (hcond1 t).mp h; omega
  have hc2 : ¬ k0_cond2 (grid0.coords t) = 1#1 := fun h => by have := (hcond2 t).mp h; omega
  have hc3 : ¬ k0_cond3 (grid0.coords t) = 1#1 := fun h => by have := (hcond3 t).mp h; omega
  have hc4 : k0_cond4 (grid0.coords t) = 1#1 := (hcond4 t).mpr h100
  rw [leaves4_live m c t h100]
  iintro ⟨⟨%S0, %S1, %hinv, HS0, HS1, Hg⟩, Ho, ⟨%d0, H0⟩, ⟨%d1, H1⟩, ⟨%d2, H2⟩, ⟨%d3, H3⟩, ⟨%d4, H4⟩⟩
  iapply ((runD c (grid0.coords t) (ms0 t) (hs0 t) (ms1 t) (hs1 t) (ms2 t) (hs2 t) (ms3 t) (hs3 t) (ms4 t) (hs4 t) scM0 (Memref.isWhole_whole _) scM1 (Memref.isWhole_whole _) hc1 hc2 hc3 hc4 (iblk m c 0 t) (iblk m c 1 t) (iblk m c 2 t) (iblk m c 3 t) S0 S1).2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, HS0, HS1⟩
  isplitl [HS0 HS1 Hg]
  · iexists S0; iexists S1
    isplitr; · ipureintro; exact inv_stepD _ _ _ _ t.val h100 S0 S1 hinv
    isplitl [HS0]; · iexact HS0
    isplitl [HS1]; · iexact HS1
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact pureD m c t h100 hc1 hc2 hc3 hc4 S0 S1 hinv _

end Cert.KernelIdeal.Hand

end
-- ==== Proof.Data.lean ====
import proofs.«100160_g20486994002746_cont_sun_c4_266_22_alg».proof.Proof.SoundA
import proofs.«100160_g20486994002746_cont_sun_c4_266_22_alg».proof.Proof.SoundB
import proofs.«100160_g20486994002746_cont_sun_c4_266_22_alg».proof.Proof.SoundC
import proofs.«100160_g20486994002746_cont_sun_c4_266_22_alg».proof.Proof.SoundD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the point is in exactly one of the four phases' cases. -/
theorem sound_body (c : Dev nD) (t : Fin cfg0.N) :
    bodyPre m c t ⊢ wp frame (wpE (defs₀ (F := F)) Variants.none c none) Set.univ (bodyAt0 t) (fun _ => bodyPost m c t) := by
  by_cases h100 : 100 ≤ t.val
  · exact soundD m c t h100
  · by_cases h50 : 50 ≤ t.val
    · exact soundC m c t h50 (by omega)
    · by_cases h0 : t.val = 0
      · exact soundA m c t h0
      · exact soundB m c t (by omega) (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: nothing is claimed of the scratch there. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d0, HS0⟩, ⟨%d1, HS1⟩⟩, Hg⟩
  iexists d0; iexists d1
  isplitr; · ipureintro; exact inv_zero _ _ _ _ d0 d1
  isplitl [HS0]; · iexact HS0
  isplitl [HS1]; · iexact HS1
  iexact Hg

/-- After the last point the scratch contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%S0, %S1, %hinv, HS0, HS1, Hg⟩
  isplitl [HS0 HS1]
  · isplitl [HS0]
    · iexists _; iexact HS0
    iexists _; iexact HS1
  iexact Hg

/-! ## The run and the frame -/

set_option backward.isDefEq.respectTransparency.types false in
/-- Every weakly fair execution of @main terminates, every array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.Blocks.lean ====
import proofs.«100160_g20486994002746_cont_sun_c4_266_22_alg».proof.Proof.Data
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx
open scoped BigOperators

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks sit in their arrays: the printed index maps, decided over the grid -/

theorem idxIn : ∀ t : Fin cfg0.N, win0_0.index t (0 : Fin 2) = 0 ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0 ∧ win0_2.index t (1 : Fin 2) = 0 :=
  (by decide +kernel : ∀ t : Fin grid0.N, _)
theorem idxA1 : ∀ t : Fin cfg0.N, t.val < 50 → win0_2.index t (0 : Fin 2) = t.val :=
  (by decide +kernel : ∀ t : Fin grid0.N, _)
theorem idxA2 : ∀ t : Fin cfg0.N, 50 ≤ t.val → t.val < 100 → win0_2.index t (0 : Fin 2) = t.val - 50 :=
  (by decide +kernel : ∀ t : Fin grid0.N, _)
theorem idxO : ∀ t : Fin cfg0.N, 100 ≤ t.val → win0_4.index t (0 : Fin 2) = t.val - 100 ∧ win0_4.index t (1 : Fin 2) = 0 :=
  (by decide +kernel : ∀ t : Fin grid0.N, _)

/-- The feature window's block is the whole feature array. -/
theorem blkX (c : Dev nD) (t : Fin cfg0.N) (y : S10000x128.Idx) : iblk m c 0 t y = V m c main_arg0 y := by
  obtain ⟨e0, e1, -⟩ := idxIn t
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The first weights' block is the whole array. -/
theorem blkW1 (c : Dev nD) (t : Fin cfg0.N) (y : S128x128.Idx) : iblk m c 1 t y = V m c main_arg2 y := by
  obtain ⟨-, -, e0, e1, -⟩ := idxIn t
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The fused weights' block is the whole concatenated array. -/
theorem blkW2 (c : Dev nD) (t : Fin cfg0.N) (y : S128x128.Idx) : iblk m c 3 t y = V m c main_v0 y := by
  obtain ⟨-, -, -, -, e0, e1, -⟩ := idxIn t
  show V m c main_v0 (((cfg0.win 3).blk t).view.emb y) = V m c main_v0 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The adjacency window's block at a point is 200 whole rows of the adjacency, from the row its index map names. -/
theorem blkA (c : Dev nD) (t : Fin cfg0.N) (p : Fin 200) (q r : Fin 10000) (hr : r.val = win0_2.index t (0 : Fin 2) * 200 + p.val) :
    iblk m c 2 t (ix2 p q) = V m c main_arg1 (ix2 r q) := by
  obtain ⟨-, -, -, -, -, -, e1⟩ := idxIn t
  show V m c main_arg1 (((cfg0.win 2).blk t).view.emb (ix2 p q)) = V m c main_arg1 (ix2 r q)
  refine congrArg _ (funext fun a => Fin.ext ?_)
  match a with
  | ⟨0, _⟩ => show win0_2.index t (0 : Fin 2) * 200 + 1 * p.val = r.val; omega
  | ⟨1, _⟩ => show win0_2.index t (1 : Fin 2) * 10000 + 1 * q.val = q.val; rw [e1]; omega

/-- The array the fused weights' window stages: the two heads' weights side by side, as @main's host operation wrote it. -/
theorem V_v0 (c : Dev nD) :
    (V m c main_v0 : S128x128.Idx → Elt F .f32)
      = concatenate S128x128 1 [⟨S128x64, m ((c : Thread nD τ).loc main_arg3)⟩, ⟨S128x64, m ((c : Thread nD τ).loc main_arg4)⟩]
          concatenates_S128x64_S128x64_S128x128_d1 := by
  dsimp only [Gen.V, Gen.hostOps0]; after_results <;> rfl

/-- Lanes 0..63 of the fused weights are the first head's. -/
theorem catLo (c : Dev nD) (h : Fin 128) (j : Fin 128) (hj : j.val < 64) :
    V m c main_v0 (ix2 h j) = m ((c : Thread nD τ).loc main_arg3) (ix2 h ⟨j.val, hj⟩) := by
  rw [V_v0]
  exact concatenate_apply_piece (t := S128x128) (1 : Fin 2) [⟨S128x64, m ((c : Thread nD τ).loc main_arg3)⟩, ⟨S128x64, m ((c : Thread nD τ).loc main_arg4)⟩] concatenates_S128x64_S128x64_S128x128_d1 (ix2 h j) 0 (by show 0 < 2; omega) S128x64 _ rfl rfl 0 rfl
    (ix2 h ⟨j.val, hj⟩) (fun b hb => by match b with | ⟨0, _⟩ => rfl | ⟨1, _⟩ => exact absurd rfl hb)
    (by show 0 + j.val = j.val; omega)

/-- Lanes 64..127 are the second head's. -/
theorem catHi (c : Dev nD) (h : Fin 128) (j : Fin 128) (hj : 64 ≤ j.val) :
    V m c main_v0 (ix2 h j) = m ((c : Thread nD τ).loc main_arg4) (ix2 h ⟨j.val - 64, by omega⟩) := by
  rw [V_v0]
  exact concatenate_apply_piece (t := S128x128) (1 : Fin 2) [⟨S128x64, m ((c : Thread nD τ).loc main_arg3)⟩, ⟨S128x64, m ((c : Thread nD τ).loc main_arg4)⟩] concatenates_S128x64_S128x64_S128x128_d1 (ix2 h j) 1 (by show 1 < 2; omega) S128x64 _ rfl rfl 64 rfl
    (ix2 h ⟨j.val - 64, by omega⟩) (fun b hb => by match b with | ⟨0, _⟩ => rfl | ⟨1, _⟩ => exact absurd rfl hb)
    (by show 64 + (j.val - 64) = j.val; omega)

end Cert.KernelIdeal.Hand

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.KernelPay.lean ====
import proofs.«100160_g20486994002746_cont_sun_c4_266_22_alg».proof.Proof.Gen.KernelIdeal.Skeleton
import proofs.«100160_g20486994002746_cont_sun_c4_266_22_alg».proof.Proof.LibPlainDot
import proofs.«100160_g20486994002746_cont_sun_c4_266_22_alg».proof.Proof.LibDotRows
import Idealize.ShloMosaic.Lib.Pipeline.Value
import Idealize.ShloMosaic.Lib.ValueIdx

set_option maxRecDepth 16384

noncomputable section

/-! ## The body's four stored values at an index, over the extended reals -/

namespace Cert.KernelIdeal.Pay

open Idealize.ShloMosaic Idealize.ShloMosaic.ValueIdx Cert.KernelIdeal Cert.KernelIdeal.Gen
open scoped BigOperators

/-- The first store: the product of the feature block with the first weights. -/
theorem pay1_apply (X : Vec Ideal S10000x128 .f32) (W : Vec Ideal S128x128 .f32) (s : Fin 10000) (h : Fin 128) :
    k0_pay1 X W (ix2 s h) = ∑ k : Fin 128, X (ix2 s k) * W (ix2 k h) := by
  unfold k0_pay1
  rw [shapeCast_self]
  exact Cert.LibPlainDot.matmul_zero_apply _ ⟨rfl, rfl, rfl, rfl, rfl, rfl⟩ none X W s h

/-- The second store: the adjacency slab applied to the first scratch, rectified, then projected by the fused weights. -/
theorem pay2_apply (A : Vec Ideal S200x10000 .f32) (XW : Vec Ideal S10000x128 .f32) (W2 : Vec Ideal S128x128 .f32)
    (p : Fin 200) (j : Fin 128) :
    k0_pay2 A XW W2 (ix2 p j)
      = ∑ h : Fin 128, max (∑ s : Fin 10000, A (ix2 p s) * XW (ix2 s h)) (Ideal.ofBits .f32 0x00000000#32) * W2 (ix2 h j) := by
  unfold k0_pay2
  rw [shapeCast_self, shapeCast_self]
  refine (Cert.LibPlainDot.matmul_zero_apply (φ₁ := .f32) (φ₂ := .f32) dot_S200x128_S128x128_S200x128_1_0_0_1_n_n ⟨rfl, rfl, rfl, rfl, rfl, rfl⟩ none _ W2 p j).trans ?_
  refine Finset.sum_congr rfl fun h _ => ?_
  have e := Cert.LibPlainDot.matmul_zero_apply (φ₁ := .f32) (φ₂ := .f32) dot_S200x10000_S10000x128_S200x128_1_0_0_1_n_n ⟨rfl, rfl, rfl, rfl, rfl, rfl⟩ none A XW p h
  exact congrArg (fun v => max v (Ideal.ofBits .f32 0x00000000#32) * W2 (ix2 h j)) e

/-- The third store: the adjacency slab applied to the second scratch; lanes 0..63 plus the exponential of lanes 64..127. -/
theorem pay3_apply (A : Vec Ideal S200x10000 .f32) (HW : Vec Ideal S10000x128 .f32) (p : Fin 200) (k : Fin 64) :
    k0_pay3 A HW (ix2 p k)
      = (∑ q : Fin 10000, A (ix2 p q) * HW (ix2 q (⟨k.val, by omega⟩ : Fin 128)))
        + Ideal.exp (∑ q : Fin 10000, A (ix2 p q) * HW (ix2 q (⟨64 + k.val, by omega⟩ : Fin 128))) := by
  unfold k0_pay3
  rw [shapeCast_self]
  have e1 := Cert.LibPlainDot.matmul_zero_apply (φ₁ := .f32) (φ₂ := .f32) dot_S200x10000_S10000x128_S200x128_1_0_0_1_n_n ⟨rfl, rfl, rfl, rfl, rfl, rfl⟩ none A HW p (⟨k.val, by omega⟩ : Fin 128)
  have e2 := Cert.LibPlainDot.matmul_zero_apply (φ₁ := .f32) (φ₂ := .f32) dot_S200x10000_S10000x128_S200x128_1_0_0_1_n_n ⟨rfl, rfl, rfl, rfl, rfl, rfl⟩ none A HW p (⟨64 + k.val, by omega⟩ : Fin 128)
  have s1 := extractStridedSlice_apply ![0, 0] (matmul (F := Ideal) (φ₁ := .f32) (φ₂ := .f32) dot_S200x10000_S10000x128_S200x128_1_0_0_1_n_n none A HW (constant S200x128 .f32 0x00000000#32))
    slices_S200x128_o0_0_S200x64 (ix2 p k) (ix2 p (⟨k.val, by omega⟩ : Fin 128))
    (fun a => by match a with | ⟨0, _⟩ => exact (Nat.zero_add _).symm | ⟨1, _⟩ => exact (Nat.zero_add _).symm)
  have s2 := extractStridedSlice_apply ![0, 64] (matmul (F := Ideal) (φ₁ := .f32) (φ₂ := .f32) dot_S200x10000_S10000x128_S200x128_1_0_0_1_n_n none A HW (constant S200x128 .f32 0x00000000#32))
    slices_S200x128_o0_64_S200x64 (ix2 p k) (ix2 p (⟨64 + k.val, by omega⟩ : Fin 128))
    (fun a => by match a with | ⟨0, _⟩ => exact (Nat.zero_add _).symm | ⟨1, _⟩ => rfl)
  exact congrArg₂ (fun a b => a + Ideal.exp b) (s1.trans e1) (s2.trans e2)

/-- The fourth store: the logistic function of the products of 400 latent rows with all latent rows, shifted and scaled. -/
theorem pay4_apply (ZS : Vec Ideal S400x64 .f32) (ZA : Vec Ideal S10000x64 .f32) (p : Fin 400) (q : Fin 10000) :
    k0_pay4 ZS ZA (ix2 p q)
      = (Ideal.logistic (∑ k : Fin 64, ZS (ix2 p k) * ZA (ix2 q k)) + Ideal.ofBits .f32 0x33D6BF95#32)
        * Ideal.ofBits .f32 0x3F7FFFFD#32 := by
  unfold k0_pay4
  have e := Cert.LibDotRows.matmul_zero_apply (φ₁ := .f32) (φ₂ := .f32) dot_S400x64_S10000x64_S400x10000_1_1_0_0_n_n ⟨rfl, rfl, rfl, rfl, rfl, rfl⟩ none ZS ZA p q
  exact congrArg (fun v => (Ideal.logistic v + Ideal.ofBits .f32 0x33D6BF95#32) * Ideal.ofBits .f32 0x3F7FFFFD#32) e

end Cert.KernelIdeal.Pay

end
-- ==== Proof.MathSpec.lean ====
import Idealize.ShloMosaic.Lib.ValueIdx
import Idealize.ShloMosaic.Lib.IdealHost

/-!
# A two-layer graph auto-encoder with an inner-product decoder, over the extended reals

With `x` the node features, `a` the (dense, normalised) adjacency, `w1` the first layer's weights and `w3`, `w4` the two
heads' weights: the hidden layer is `relu (a · (x · w1))`, each head is `a · (hidden · w)`, the latent array is the first
head plus the exponential of the second, and the output is the logistic function of the latent array's Gram matrix,
shifted and scaled by two constants. Every product is a plain finite sum; no entry is assumed finite.
-/

noncomputable section

namespace Cert.GaeSpec

open Idealize.ShloMosaic Idealize.ShloMosaic.ValueIdx
open scoped BigOperators

variable (x0 : (⟨2, ![10000, 128]⟩ : Shape).Idx → EReal) (x1 : (⟨2, ![10000, 10000]⟩ : Shape).Idx → EReal)
  (x2 : (⟨2, ![128, 128]⟩ : Shape).Idx → EReal) (x3 x4 : (⟨2, ![128, 64]⟩ : Shape).Idx → EReal)

/-- The features times the first weights. -/
def xw (s : Fin 10000) (h : Fin 128) : EReal := ∑ k : Fin 128, x0 (ix2 s k) * x2 (ix2 k h)

/-- The hidden layer: the adjacency applied to that product, rectified. -/
def hid (q : Fin 10000) (h : Fin 128) : EReal :=
  max (∑ s : Fin 10000, x1 (ix2 q s) * xw x0 x2 s h) (Ideal.ofBits .f32 0x00000000#32)

/-- The hidden layer projected by one head's weights `w`. -/
def proj (w : (⟨2, ![128, 64]⟩ : Shape).Idx → EReal) (q : Fin 10000) (k : Fin 64) : EReal :=
  ∑ h : Fin 128, hid x0 x1 x2 q h * w (ix2 h k)

/-- One head: the adjacency applied to the projection. -/
def head (w : (⟨2, ![128, 64]⟩ : Shape).Idx → EReal) (r : Fin 10000) (k : Fin 64) : EReal :=
  ∑ q : Fin 10000, x1 (ix2 r q) * proj x0 x1 x2 w q k

/-- The latent array: the first head plus the exponential of the second. -/
def lat (r : Fin 10000) (k : Fin 64) : EReal := head x0 x1 x2 x3 r k + Ideal.exp (head x0 x1 x2 x4 r k)

/-- The decoder: the logistic function of the inner product of two latent rows, plus a constant, times a constant. -/
def out (p q : Fin 10000) : EReal :=
  (Ideal.logistic (∑ k : Fin 64, lat x0 x1 x2 x3 x4 p k * lat x0 x1 x2 x3 x4 q k) + Ideal.ofBits .f32 0x33D6BF95#32)
    * Ideal.ofBits .f32 0x3F7FFFFD#32

end Cert.GaeSpec

end
-- ==== Proof.KernelSpec.lean ====
import proofs.«100160_g20486994002746_cont_sun_c4_266_22_alg».proof.Proof.State
import proofs.«100160_g20486994002746_cont_sun_c4_266_22_alg».proof.Proof.KernelPay
import proofs.«100160_g20486994002746_cont_sun_c4_266_22_alg».proof.Proof.MathSpec

set_option maxRecDepth 16384

noncomputable section

/-! ## The scratch buffers' closed forms are the specification's arrays

Given what the staged blocks hold of the five argument arrays (`Blocks`): the first scratch's product is the
specification's, a row of the second scratch is the hidden layer projected by the first head's weights in lanes 0..63 and
by the second head's in lanes 64..127 (the fused weights are the two heads' side by side), a latent entry is the
specification's, and a decoder block is the specification's output on its rows. -/

namespace Cert.KernelIdeal.Hand

open Idealize.ShloMosaic Idealize.ShloMosaic.ValueIdx Cert.KernelIdeal Cert.KernelIdeal.Gen Cert.KernelIdeal.Pay Cert.GaeSpec
open scoped BigOperators

variable (X : ℕ → Vec Ideal S10000x128 .f32) (W1 W2 : ℕ → Vec Ideal S128x128 .f32) (A : ℕ → Vec Ideal S200x10000 .f32)
variable (x0 : S10000x128.Idx → EReal) (x1 : S10000x10000.Idx → EReal) (x2 : S128x128.Idx → EReal) (x3 x4 : S128x64.Idx → EReal)

/-- What the staged blocks hold: the feature and first-weight blocks are the whole arrays; the fused weights hold the first
    head's in lanes 0..63 and the second head's in lanes 64..127; the adjacency slab staged at point `n` is rows 200n.. in the
    first phase and rows 200(n−50).. in the second. -/
structure Blocks : Prop where
  hX : X 0 = x0
  hW1 : W1 0 = x2
  hW2lo : ∀ (n : ℕ) (h : Fin 128) (j : Fin 128) (hj : j.val < 64), W2 n (ix2 h j) = x3 (ix2 h ⟨j.val, hj⟩)
  hW2hi : ∀ (n : ℕ) (h : Fin 128) (j : Fin 128) (hj : 64 ≤ j.val), W2 n (ix2 h j) = x4 (ix2 h ⟨j.val - 64, by omega⟩)
  hA1 : ∀ n, n < 50 → ∀ (p : Fin 200) (q r : Fin 10000), r.val = 200 * n + p.val → A n (ix2 p q) = x1 (ix2 r q)
  hA2 : ∀ n, 50 ≤ n → n < 100 → ∀ (p : Fin 200) (q r : Fin 10000), r.val = 200 * (n - 50) + p.val → A n (ix2 p q) = x1 (ix2 r q)

variable {X W1 W2 A x0 x1 x2 x3 x4}

theorem sXW (hb : Blocks X W1 W2 A x0 x1 x2 x3 x4) (s : Fin 10000) (h : Fin 128) :
    specXW X W1 (ix2 s h) = xw x0 x2 s h := by
  unfold specXW xw
  rw [pay1_apply, hb.hX, hb.hW1]

theorem sHid (hb : Blocks X W1 W2 A x0 x1 x2 x3 x4) (q : Fin 10000) (h : Fin 128) :
    max (∑ s : Fin 10000, A (q.val / 200) (ix2 (⟨q.val % 200, Nat.mod_lt _ (by decide)⟩ : Fin 200) s) * specXW X W1 (ix2 s h))
        (Ideal.ofBits .f32 0x00000000#32) = hid x0 x1 x2 q h := by
  unfold hid
  congr 1
  refine Finset.sum_congr rfl fun s _ => ?_
  rw [hb.hA1 (q.val / 200) (by omega) _ s q (by show q.val = 200 * (q.val / 200) + q.val % 200; omega), sXW hb]

theorem sHWlo (hb : Blocks X W1 W2 A x0 x1 x2 x3 x4) (q : Fin 10000) (k : Fin 64) :
    specHW X W1 W2 A (ix2 q (⟨k.val, by omega⟩ : Fin 128)) = proj x0 x1 x2 x3 q k := by
  unfold specHW
  show k0_pay2 (A (q.val / 200)) (specXW X W1) (W2 (q.val / 200))
    (ix2 (⟨q.val % 200, Nat.mod_lt _ (by decide)⟩ : Fin 200) (⟨k.val, by omega⟩ : Fin 128)) = _
  rw [pay2_apply]
  unfold proj
  refine Finset.sum_congr rfl fun h _ => ?_
  rw [sHid hb, hb.hW2lo _ h _ k.isLt]

theorem sHWhi (hb : Blocks X W1 W2 A x0 x1 x2 x3 x4) (q : Fin 10000) (k : Fin 64) :
    specHW X W1 W2 A (ix2 q (⟨64 + k.val, by omega⟩ : Fin 128)) = proj x0 x1 x2 x4 q k := by
  unfold specHW
  show k0_pay2 (A (q.val / 200)) (specXW X W1) (W2 (q.val / 200))
    (ix2 (⟨q.val % 200, Nat.mod_lt _ (by decide)⟩ : Fin 200) (⟨64 + k.val, by omega⟩ : Fin 128)) = _
  rw [pay2_apply]
  unfold proj
  refine Finset.sum_congr rfl fun h _ => ?_
  rw [sHid hb, hb.hW2hi _ h _ (by show 64 ≤ 64 + k.val; omega)]
  congr 2
  exact congrArg (ix2 h) (Fin.ext (by show 64 + k.val - 64 = k.val; omega))

theorem sZ (hb : Blocks X W1 W2 A x0 x1 x2 x3 x4) (r : Fin 10000) (k : Fin 64) :
    specZ X W1 W2 A (ix2 r (⟨k.val, by omega⟩ : Fin 128)) = lat x0 x1 x2 x3 x4 r k := by
  unfold specZ
  rw [dif_pos (show ((ix2 r (⟨k.val, by omega⟩ : Fin 128)) 1).val < 64 from k.isLt)]
  show k0_pay3 (A (50 + r.val / 200)) (specHW X W1 W2 A) (ix2 (⟨r.val % 200, Nat.mod_lt _ (by decide)⟩ : Fin 200) k) = _
  rw [pay3_apply]
  unfold lat head
  congr 1
  · refine Finset.sum_congr rfl fun q _ => ?_
    rw [hb.hA2 (50 + r.val / 200) (by omega) (by omega) _ q r
      (by show r.val = 200 * (50 + r.val / 200 - 50) + r.val % 200; omega), sHWlo hb]
  · congr 1
    refine Finset.sum_congr rfl fun q _ => ?_
    rw [hb.hA2 (50 + r.val / 200) (by omega) (by omega) _ q r
      (by show r.val = 200 * (50 + r.val / 200 - 50) + r.val % 200; omega), sHWhi hb]

/-- A decoder block, computed from the latent rows `o..o+399` and from all latent rows, is the specification's output on those rows. -/
theorem sOut (hb : Blocks X W1 W2 A x0 x1 x2 x3 x4) (off : Fin 2 → ℕ) (o : ℕ) (hoff : off = ![o, 0])
    (inb1 : ∀ a, off a + S400x64.size a ≤ S10000x128.size a)
    (inb2 : ∀ a, (![0, 0] : Fin 2 → ℕ) a + S10000x64.size a ≤ S10000x128.size a)
    (p : Fin 400) (q r : Fin 10000) (hr : r.val = o + p.val) :
    k0_pay4 (View.ld (Val := Elt Ideal) (specZ X W1 W2 A) (Rect.unit (s := S10000x128) off S400x64.size inb1))
        (View.ld (Val := Elt Ideal) (specZ X W1 W2 A) (Rect.unit (s := S10000x128) ![0, 0] S10000x64.size inb2)) (ix2 p q)
      = out x0 x1 x2 x3 x4 r q := by
  subst hoff
  rw [pay4_apply]
  unfold out
  congr 3
  refine Finset.sum_congr rfl fun k _ => ?_
  have e1 : (Rect.unit (s := S10000x128) ![o, 0] S400x64.size inb1).idx (ix2 p k) = ix2 r (⟨k.val, by omega⟩ : Fin 128) :=
    funext fun a => Fin.ext (by
      match a with
      | ⟨0, _⟩ => show o + 1 * p.val = r.val; omega
      | ⟨1, _⟩ => show 0 + 1 * k.val = k.val; omega)
  have e2 : (Rect.unit (s := S10000x128) ![0, 0] S10000x64.size inb2).idx (ix2 q k) = ix2 q (⟨k.val, by omega⟩ : Fin 128) :=
    funext fun a => Fin.ext (by
      match a with
      | ⟨0, _⟩ => show 0 + 1 * q.val = q.val; omega
      | ⟨1, _⟩ => show 0 + 1 * k.val = k.val; omega)
  show specZ X W1 W2 A _ * specZ X W1 W2 A _ = _
  rw [e1, e2, sZ hb, sZ hb]

end Cert.KernelIdeal.Hand

end
-- ==== Proof.KernelFinal.lean ====
import proofs.«100160_g20486994002746_cont_sun_c4_266_22_alg».proof.Proof.Blocks
import proofs.«100160_g20486994002746_cont_sun_c4_266_22_alg».proof.Proof.KernelSpec

set_option maxRecDepth 16384

noncomputable section

/-! ## The output array after the run is the specification's, at the ideal instance -/

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen Cert.GaeSpec
open scoped BigOperators

variable (m : (ℓ : Loc nD τ sig) → Buf (Elt Ideal) ℓ) (ρ : Dev nD → PrngReg)

/-- The staged blocks hold what the specification's arrays say, the arrays being the arguments as launched. -/
theorem blocks (c : Dev nD) :
    Blocks (aX m c) (aW1 m c) (aW2 m c) (aA m c)
      (m ((c : Thread nD τ).loc main_arg0)) (m ((c : Thread nD τ).loc main_arg1)) (m ((c : Thread nD τ).loc main_arg2))
      (m ((c : Thread nD τ).loc main_arg3)) (m ((c : Thread nD τ).loc main_arg4)) where
  hX := funext fun y => (blkX m c (pt 0) y).trans (congrFun (V_main_arg0 m c) y)
  hW1 := funext fun y => (blkW1 m c (pt 0) y).trans (congrFun (V_main_arg2 m c) y)
  hW2lo n h j hj := (blkW2 m c (pt n) (ix2 h j)).trans (catLo m c h j hj)
  hW2hi n h j hj := (blkW2 m c (pt n) (ix2 h j)).trans (catHi m c h j hj)
  hA1 n hn p q r hr := by
    have hv : (pt n).val = n := Nat.mod_eq_of_lt (by omega)
    exact (blkA m c (pt n) p q r (by rw [idxA1 (pt n) (by omega), hv]; omega)).trans (congrFun (V_main_arg1 m c) _)
  hA2 n hn0 hn p q r hr := by
    have hv : (pt n).val = n := Nat.mod_eq_of_lt (by omega)
    exact (blkA m c (pt n) p q r (by rw [idxA2 (pt n) (by omega) (by omega), hv]; omega)).trans (congrFun (V_main_arg1 m c) _)

/-- The specification's output array at the arguments as launched. -/
def outArr (c : Dev nD) : S10000x10000.Idx → EReal := fun y =>
  out (m ((c : Thread nD τ).loc main_arg0)) (m ((c : Thread nD τ).loc main_arg1)) (m ((c : Thread nD τ).loc main_arg2))
    (m ((c : Thread nD τ).loc main_arg3)) (m ((c : Thread nD τ).loc main_arg4)) (y 0) (y 1)

/-- What a point of the last phase writes back is its block of the specification's output. -/
theorem flushed_eq (c : Dev nD) (t : Fin cfg0.N) (hf : (cfg0.win 4).flush t = true) :
    (dats m 0 c).flushed 4 t = ((cfg0.win 4).blk t).view.read (Elt Ideal) (outArr m c) := by
  have h100 : 100 ≤ t.val := by
    by_contra hlt
    have := noFlush4 t (by omega)
    rw [this] at hf
    exact Bool.false_ne_true hf
  have hc4 : k0_cond4 (grid0.coords t) = 1#1 := (hcond4 t).mpr h100
  obtain ⟨e0, e1⟩ := idxO t h100
  have hN : t.val < 125 := lt_of_lt_of_eq t.isLt N_0
  show (cfg0.win 4).cut (grid0.coords t) ((dats m 0 c).after 4 t) = _
  rw [after4]
  funext j
  obtain ⟨p, q, rfl⟩ : ∃ (p : Fin 400) (q : Fin 10000), j = ix2 p q := ⟨j 0, j 1, eq_ix2 j⟩
  show outAt m c t (ix2 p q) = outArr m c (((cfg0.win 4).blk t).view.emb (ix2 p q))
  unfold outAt
  rw [dif_pos hc4]
  unfold zArr
  rw [sOut (blocks m c) _ (400 * (t.val - 100)) (hoff3 t h100) _ _ p q ⟨400 * (t.val - 100) + p.val, by omega⟩ rfl]
  unfold outArr
  congr 1
  · apply Fin.ext
    show 400 * (t.val - 100) + p.val = win0_4.index t (0 : Fin 2) * 400 + 1 * p.val
    rw [e0]; omega
  · apply Fin.ext
    show q.val = win0_4.index t (1 : Fin 2) * 10000 + 1 * q.val
    rw [e1]; omega

/-- An index of the output array is in point `t`'s block iff each coordinate is in the block's range on its axis. -/
theorem mem_blk4 (t : Fin cfg0.N) (i : S10000x10000.Idx) :
    i ∈ ((cfg0.win 4).blk t).view.set ↔ ∀ a : Fin 2, win0_4.index t a * S400x10000.size a ≤ (i a).val ∧ (i a).val < win0_4.index t a * S400x10000.size a + S400x10000.size a := by
  show i ∈ ((View.whole main_v1).slice (win0_4.rect t)).set ↔ _
  rw [View.set_slice_whole, Rect.mem_set_unit]
  exact Iff.rfl

/-- Every row of the output lies in the block of the point 100 + row / 400. -/
theorem cover (c : Dev nD) (i : S10000x10000.Idx) :
    ∃ t : Fin cfg0.N, (cfg0.win 4).flush t = true ∧ i ∈ ((cfg0.win 4).blk t).view.set := by
  have hi0 : (i 0).val < 10000 := idx2_lt0 i
  have hi1 : (i 1).val < 10000 := idx2_lt1 i
  have hv : (pt (100 + (i 0).val / 400)).val = 100 + (i 0).val / 400 := Nat.mod_eq_of_lt (by omega)
  obtain ⟨e0, e1⟩ := idxO (pt (100 + (i 0).val / 400)) (by omega)
  refine ⟨pt (100 + (i 0).val / 400), flush4 _ (by omega), ?_⟩
  rw [mem_blk4]
  intro a
  match a with
  | ⟨0, _⟩ =>
    show win0_4.index _ (0 : Fin 2) * 400 ≤ (i 0).val ∧ (i 0).val < win0_4.index _ (0 : Fin 2) * 400 + 400
    rw [e0, hv]; omega
  | ⟨1, _⟩ =>
    show win0_4.index _ (1 : Fin 2) * 10000 ≤ (i 1).val ∧ (i 1).val < win0_4.index _ (1 : Fin 2) * 10000 + 10000
    rw [e1]; omega

/-- The output array after the run. -/
theorem final (c : Dev nD) : (dats m 0 c).arrAt 4 cfg0.N = outArr m c :=
  (dats m 0 c).arrAt_eq_of_cover 4 (outArr m c) (fun t hf => flushed_eq m c t hf) (cover c)

/-- The run at the ideal instance: the result array ends at the specification's output, the arguments unchanged. -/
theorem run : θ_run defs (onTc (τ := τ) (main (F := Ideal))) ⟨m, fun _ => 0, ρ⟩ (fun r => ∀ c : Dev nD,
      r.2.mem ((c.tc : Thread nD τ).loc main_v1) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Hand

end
-- ==== Proof.RefValue.lean ====
import proofs.«100160_g20486994002746_cont_sun_c4_266_22_alg».proof.Proof.Gen.ReferenceIdeal.Read
import proofs.«100160_g20486994002746_cont_sun_c4_266_22_alg».proof.Proof.MathSpec
import proofs.«100160_g20486994002746_cont_sun_c4_266_22_alg».proof.Proof.LibPlainDot

noncomputable section

/-! ## The reference computes the specification, stage by stage -/

namespace Cert.RefSpec

open Cert.ReferenceIdeal Cert.ReferenceIdeal.Gen Cert.ReferenceIdeal.Read Idealize.ShloMosaic Idealize.ShloMosaic.ValueIdx Cert.GaeSpec
open scoped BigOperators

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 x4 : (⟨S128x64, .f32⟩ : BufTy).Contents (Elt Ideal))

/-- The host's rows-by-columns product at an index is the plain sum. -/
theorem hostDot {M K N : ℕ} (d : DotDims ⟨2, ![M, K]⟩ ⟨2, ![K, N]⟩ ⟨2, ![M, N]⟩) (hd : Cert.LibPlainDot.Plain d)
    (l : FVec Ideal ⟨2, ![M, K]⟩ .f32) (r : FVec Ideal ⟨2, ![K, N]⟩ .f32) (p : Fin M) (q : Fin N) :
    Host.dotGeneral (F := Ideal) d none l r (ix2 p q) = ∑ k : Fin K, l (ix2 p k) * r (ix2 k q) :=
  Cert.LibPlainDot.dotGeneral_apply d hd none _ l r p q

/-- The first product. -/
theorem r0 (s : Fin 10000) (h : Fin 128) : val_main_v0 (F := Ideal) x0 x2 (ix2 s h) = xw x0 x2 s h := by
  unfold val_main_v0
  exact hostDot _ ⟨rfl, rfl, rfl, rfl, rfl, rfl⟩ x0 x2 s h

/-- The adjacency applied to it. -/
theorem r1 (q : Fin 10000) (h : Fin 128) :
    val_main_v1 (F := Ideal) x0 x1 x2 (ix2 q h) = ∑ s : Fin 10000, x1 (ix2 q s) * xw x0 x2 s h := by
  unfold val_main_v1
  rw [hostDot _ ⟨rfl, rfl, rfl, rfl, rfl, rfl⟩]
  exact Finset.sum_congr rfl fun s _ => by rw [r0]

/-- The hidden layer: the maximum with the broadcast zero word. -/
theorem r2 (q : Fin 10000) (h : Fin 128) : val_main_v2 (F := Ideal) x0 x1 x2 (ix2 q h) = hid x0 x1 x2 q h := by
  rw [val_main_v2_apply, r1, val_main_call0_v0_apply, val_main_call0_cst_apply]
  rfl

/-- A head's projection of the hidden layer. -/
theorem r3 (w : (⟨S128x64, .f32⟩ : BufTy).Contents (Elt Ideal)) (q : Fin 10000) (k : Fin 64) :
    Host.dotGeneral (F := Ideal) (φ₁ := .f32) (φ₂ := .f32) dot_S10000x128_S128x64_S10000x64_1_0_0_1_n_n none (val_main_v2 (F := Ideal) x0 x1 x2) w (ix2 q k)
      = proj x0 x1 x2 w q k := by
  rw [hostDot _ ⟨rfl, rfl, rfl, rfl, rfl, rfl⟩]
  unfold proj
  exact Finset.sum_congr rfl fun h _ => by rw [r2]

/-- A head: the adjacency applied to the projection. -/
theorem r4 (w : (⟨S128x64, .f32⟩ : BufTy).Contents (Elt Ideal)) (r : Fin 10000) (k : Fin 64) :
    Host.dotGeneral (F := Ideal) (φ₁ := .f32) (φ₂ := .f32) dot_S10000x10000_S10000x64_S10000x64_1_0_0_1_n_n none x1
        (Host.dotGeneral (F := Ideal) (φ₁ := .f32) (φ₂ := .f32) dot_S10000x128_S128x64_S10000x64_1_0_0_1_n_n none (val_main_v2 (F := Ideal) x0 x1 x2) w) (ix2 r k)
      = head x0 x1 x2 w r k := by
  rw [hostDot _ ⟨rfl, rfl, rfl, rfl, rfl, rfl⟩]
  unfold head
  exact Finset.sum_congr rfl fun q _ => by rw [r3]

/-- The latent array. -/
theorem r8 (r : Fin 10000) (k : Fin 64) : val_main_v8 (F := Ideal) x0 x1 x2 x3 x4 (ix2 r k) = lat x0 x1 x2 x3 x4 r k := by
  rw [val_main_v8_apply, val_main_v7_apply]
  unfold val_main_v4 val_main_v3 val_main_v6 val_main_v5 lat
  rw [r4, r4]
  rfl

/-- The transposed latent array read at (k, q) is the latent array at (q, k). -/
theorem r9 (k : Fin 64) (q : Fin 10000) : val_main_v9 (F := Ideal) x0 x1 x2 x3 x4 (ix2 k q) = lat x0 x1 x2 x3 x4 q k := by
  rw [val_main_v9_apply]
  rw [show idx_main_v9 (ix2 k q) = ix2 q k from funext fun a => by match a with | ⟨0, _⟩ => rfl | ⟨1, _⟩ => rfl]
  exact r8 x0 x1 x2 x3 x4 q k

/-- The Gram matrix of the latent array. -/
theorem r10 (p q : Fin 10000) :
    val_main_v10 (F := Ideal) x0 x1 x2 x3 x4 (ix2 p q) = ∑ k : Fin 64, lat x0 x1 x2 x3 x4 p k * lat x0 x1 x2 x3 x4 q k := by
  unfold val_main_v10
  rw [hostDot _ ⟨rfl, rfl, rfl, rfl, rfl, rfl⟩]
  exact Finset.sum_congr rfl fun k _ => by rw [r8, r9]

/-- The reference's result at (p, q) is the specification's: the quotient 1 / (1 + e^(−s)) it spells is the logistic function. -/
theorem ref_out (p q : Fin 10000) : val_main_v20 (F := Ideal) x0 x1 x2 x3 x4 (ix2 p q) = out x0 x1 x2 x3 x4 p q := by
  rw [val_main_v20_apply, val_main_v19_apply, val_main_cst_2_apply, val_main_v18_apply, val_main_v17_apply, val_main_cst_1_apply,
    val_main_v16_apply, val_main_v15_apply, val_main_cst_0_apply, val_main_v14_apply, val_main_v13_apply, val_main_cst_apply,
    val_main_v12_apply, val_main_v11_apply, r10]
  simp only [Ideal.ofBits_def, Ideal.ofBits_one_f32]
  rfl

end Cert.RefSpec

end
-- ==== Proof.lean ====
/-
  A fused graph auto-encoder kernel against its plain reference, over the extended reals.

  The kernel makes ONE pass of 125 grid points over two scratch buffers. Point 0 stores the product of the features
  with the first weights into the first scratch; points 0..49 store, 200 rows at a time, the hidden layer
  (the adjacency slab applied to that product, rectified) projected by the two heads' weights laid side by side into the
  second scratch; points 50..99 apply the adjacency slabs to the second scratch and store, into the first 64 lanes of
  the first scratch, the first head plus the exponential of the second; points 100..124 store the decoder's blocks of
  400 rows: the logistic function of the latent rows' inner products, plus a constant, times a constant.

  The frames: the body's run at each of the four kinds of point, an invariant describing what the two scratch buffers
  hold before each point, and the library's launch theorem for a body that carries state between points. The value:
  the invariant names the scratch contents in closed form, so each decoder block is a fixed function of the staged blocks;
  at the ideal instance every product is a plain finite sum, the fused weights' lanes 0..63 and 64..127 are the two
  heads' weights, so the sums the kernel takes are, term by term and in the same order, the sums the reference takes:
  no law of arithmetic beyond that is used, and the finiteness of the inputs is never needed.
-/
import proofs.«100160_g20486994002746_cont_sun_c4_266_22_alg».proof.Defs
import proofs.«100160_g20486994002746_cont_sun_c4_266_22_alg».proof.Proof.Gen.Kernel
import proofs.«100160_g20486994002746_cont_sun_c4_266_22_alg».proof.Proof.Gen.KernelIdeal
import proofs.«100160_g20486994002746_cont_sun_c4_266_22_alg».proof.Proof.Gen.ReferenceIdeal
import proofs.«100160_g20486994002746_cont_sun_c4_266_22_alg».proof.Proof.Gen.Pre_finite_inputs
import proofs.«100160_g20486994002746_cont_sun_c4_266_22_alg».proof.Proof.Bits.Data
import proofs.«100160_g20486994002746_cont_sun_c4_266_22_alg».proof.Proof.KernelFinal
import proofs.«100160_g20486994002746_cont_sun_c4_266_22_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed runs to the end, faults nowhere, and leaves its arguments as they were. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the specification's output array of the arguments they agree on. -/
theorem algebraic : Cert.algebraic_KernelIdeal_ReferenceIdeal := by
  intro m ρ m' ρ' _ hagree
  refine ⟨fun c => Cert.KernelIdeal.Hand.outArr m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2.1,
    (hagree c).2.2.2.2]
  funext y
  obtain ⟨p, q, rfl⟩ : ∃ (p q : Fin 10000), y = ix2 p q := ⟨y 0, y 1, eq_ix2 y⟩
  exact Cert.RefSpec.ref_out _ _ _ _ _ p q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
